-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S64x32 : Shape := ⟨2, ![64, 32]⟩
abbrev S128x160 : Shape := ⟨2, ![128, 160]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S128x160 : S_.BroadcastsInDim S128x160 (![] : Fin 0 → Fin S128x160.rank)
  reducesTo_S128x160_S_d0_1 : S128x160.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg10 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg7 : FVec F S128x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_v33

def fn {F : FTy → Type} [FloatOps F] (main_arg0 : FVec F S100000x128 .f32) (main_arg1 : IVec S1600000 32) (main_arg2 : IVec S1600000 32) (main_arg3 : IVec S1600000 32) (main_arg4 : FVec F S64x32 .f32) (main_arg5 : FVec F S128x160 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x32 .f32 := Host.absf main_arg4
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S128x160 .f32 := Host.absf main_arg5
  let main_cst_2 : FVec F S_ .f32 := constant S_ .f32 0x7F800000#32
  let main_v10 : FVec F S128x160 .f32 := broadcastInDim S128x160 ![] bcast_S_S128x160 main_cst_2
  let main_v11 : IVec S128x160 1 := cmpf .olt main_v9 main_v10
  let main_c_3 : IVec S_ 1 := constantI S_ 1 1#1
  let main_v12 : IVec S_ 1 := (fun x v => Host.reduce IntOp.andi x v reducesTo_S128x160_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_v13 main_v16
-- ==== Kernel.lean ====
abbrev S100000x128 : Shape := ⟨2, ![100000, 128]⟩
abbrev S1600000 : Shape := ⟨1, ![1600000]⟩
abbrev S64x32 : Shape := ⟨2, ![64, 32]⟩
abbrev S128x160 : Shape := ⟨2, ![128, 160]⟩
abbrev S128 : Shape := ⟨1, ![128]⟩
abbrev S128x128 : Shape := ⟨2, ![128, 128]⟩
abbrev S128x32 : Shape := ⟨2, ![128, 32]⟩
abbrev S32x128 : Shape := ⟨2, ![32, 128]⟩
abbrev S64x128 : Shape := ⟨2, ![64, 128]⟩
abbrev S1x128 : Shape := ⟨2, ![1, 128]⟩
abbrev S10000x128 : Shape := ⟨2, ![10000, 128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S5000x128 : Shape := ⟨2, ![5000, 128]⟩
abbrev S5000x1 : Shape := ⟨2, ![5000, 1]⟩

abbrev nBuf : Space → Nat
  | .hbm => 61
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .i32⟩
  | .hbm, ⟨4, _⟩ => ⟨S64x32, .f32⟩
  | .hbm, ⟨5, _⟩ => ⟨S128x160, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x32, .f32⟩
  | .hbm, ⟨13, _⟩ => ⟨S128x128, .f32⟩
  | .hbm, ⟨14, _⟩ => ⟨S32x128, .f32⟩
  | .hbm, ⟨15, _⟩ => ⟨S64x128, .f32⟩
  | .hbm, ⟨16, _⟩ => ⟨S1x128, .f32⟩
  | .hbm, ⟨17, _⟩ => ⟨S64x128, .f32⟩
  | .hbm, ⟨18, _⟩ => ⟨S64x128, .f32⟩
  | .hbm, ⟨19, _⟩ => ⟨S100000x128, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S_, .f32⟩
  | .hbm, ⟨44, _⟩ => ⟨S1600000, .f32⟩
  | .hbm, ⟨45, _⟩ => ⟨S_, .f32⟩
  | .hbm, ⟨46, _⟩ => ⟨S100000, .f32⟩
  | .hbm, ⟨47, _⟩ => ⟨S1600000x1, .i32⟩
  | .hbm, ⟨48, _⟩ => ⟨S100000, .f32⟩
  | .hbm, ⟨49, _⟩ => ⟨S_, .f32⟩
  | .hbm, ⟨50, _⟩ => ⟨S100000, .f32⟩
  | .hbm, ⟨51, _⟩ => ⟨S100000, .f32⟩
  | .hbm, ⟨52, _⟩ => ⟨S_, .f32⟩
  | .hbm, ⟨53, _⟩ => ⟨S100000, .f32⟩
  | .hbm, ⟨54, _⟩ => ⟨S100000, .f32⟩
  | .hbm, ⟨55, _⟩ => ⟨S100000x1, .f32⟩
  | .hbm, ⟨56, _⟩ => ⟨S128x128, .f32⟩
  | .hbm, ⟨57, _⟩ => ⟨S128x128, .f32⟩
  | .hbm, ⟨58, _⟩ => ⟨S1x128, .f32⟩
  | .hbm, ⟨59, _⟩ => ⟨S1x128, .f32⟩
  | .hbm, ⟨60, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S128x160_S128x128_0_0 : S128x160.Slices ![0, 0] S128x128
  slices_S128x160_S128x32_0_128 : S128x160.Slices ![0, 128] S128x32
  transposes_S128x128_S128x128_1_0 : S128x128.Transposes [1, 0] S128x128
  transposes_S128x32_S32x128_1_0 : S128x32.Transposes [1, 0] S32x128
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S64x32_S32x128_S64x128_1_0_0_1_n_n_wf : DotDims.WF S64x32 S32x128 S64x128 [1] [0] [0] [1] [] []
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  gather_S64x128_S1600000x1_S1600000x128_1_0_n_n_0_1_1128_wf : GatherDims.WF S64x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)

variable [Facts₀]

def dot_S64x32_S32x128_S64x128_1_0_0_1_n_n : DotDims S64x32 S32x128 S64x128 where
  lhsContracting := [1]
  rhsContracting := [0]
  lhsNonContracting := [0]
  rhsNonContracting := [1]
  lhsBatch := []
  rhsBatch := []
  wf := dot_S64x32_S32x128_S64x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S64x128_S1600000x1_S1600000x128_1_0_n_n_0_1_1128 : GatherDims S64x128 S1600000x1 S1600000x128 where
  offsetDims := [1]
  collapsedSliceDims := [0]
  operandBatchingDims := []
  startIndicesBatchingDims := []
  startIndexMap := [0]
  indexVectorDim := 1
  sliceSizes := ![1, 128]
  wf := gather_S64x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v40) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S64x32 : Shape := ⟨2, ![64, 32]⟩
abbrev S128x160 : Shape := ⟨2, ![128, 160]⟩
abbrev S128 : Shape := ⟨1, ![128]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩
abbrev S1600000x32 : Shape := ⟨2, ![1600000, 32]⟩
abbrev S1600000x160 : Shape := ⟨2, ![1600000, 160]⟩
abbrev S160x128 : Shape := ⟨2, ![160, 128]⟩
abbrev S1x128 : Shape := ⟨2, ![1, 128]⟩
abbrev S100000 : Shape := ⟨1, ![100000]⟩
abbrev S100000x1 : Shape := ⟨2, ![100000, 1]⟩

abbrev nBuf : Space → Nat
  | .hbm => 65
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .i32⟩
  | .hbm, ⟨4, _⟩ => ⟨S64x32, .f32⟩
  | .hbm, ⟨5, _⟩ => ⟨S128x160, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x32, .f32⟩
  | .hbm, ⟨29, _⟩ => ⟨S1600000x160, .f32⟩
  | .hbm, ⟨30, _⟩ => ⟨S160x128, .f32⟩
  | .hbm, ⟨31, _⟩ => ⟨S1600000x128, .f32⟩
  | .hbm, ⟨32, _⟩ => ⟨S1x128, .f32⟩
  | .hbm, ⟨33, _⟩ => ⟨S1600000x128, .f32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S_, .f32⟩
  | .hbm, ⟨40, _⟩ => ⟨S1600000, .f32⟩
  | .hbm, ⟨41, _⟩ => ⟨S_, .f32⟩
  | .hbm, ⟨42, _⟩ => ⟨S100000, .f32⟩
  | .hbm, ⟨43, _⟩ => ⟨S1600000x1, .i32⟩
  | .hbm, ⟨44, _⟩ => ⟨S100000, .f32⟩
  | .hbm, ⟨45, _⟩ => ⟨S_, .f32⟩
  | .hbm, ⟨46, _⟩ => ⟨S100000, .f32⟩
  | .hbm, ⟨47, _⟩ => ⟨S100000, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S128x128, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S128x128, .f32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call0_cst : Ref sig .tc := ⟨.hbm, 62, rfl⟩
abbrev main_call0_v0 : Ref sig .tc := ⟨.hbm, 63, rfl⟩
abbrev main_v43 : Ref sig .tc := ⟨.hbm, 64, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x128_S1600000x32_S1600000x160_d1 : Shape.Concatenates [S1600000x128, S1600000x32] S1600000x160 1
  transposes_S128x160_S160x128_1_0 : S128x160.Transposes [1, 0] S160x128
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  gather_S64x32_S1600000x1_S1600000x32_1_0_n_n_0_1_132_wf : GatherDims.WF S64x32 S1600000x1 S1600000x32 [1] [0] [] [0] [] 1 ![1, 32]
  dot_S1600000x160_S160x128_S1600000x128_1_0_0_1_n_n_wf : DotDims.WF S1600000x160 S160x128 S1600000x128 [1] [0] [0] [1] [] []
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S64x32_S1600000x1_S1600000x32_1_0_n_n_0_1_132 : GatherDims S64x32 S1600000x1 S1600000x32 where
  offsetDims := [1]
  collapsedSliceDims := [0]
  operandBatchingDims := []
  startIndicesBatchingDims := []
  startIndexMap := [0]
  indexVectorDim := 1
  sliceSizes := ![1, 32]
  wf := gather_S64x32_S1600000x1_S1600000x32_1_0_n_n_0_1_132_wf
def dot_S1600000x160_S160x128_S1600000x128_1_0_0_1_n_n : DotDims S1600000x160 S160x128 S1600000x128 where
  lhsContracting := [1]
  rhsContracting := [0]
  lhsNonContracting := [0]
  rhsNonContracting := [1]
  lhsBatch := []
  rhsBatch := []
  wf := dot_S1600000x160_S160x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RunValue.lean ====
/-
  The idealized kernel's run with its result named. Every weakly fair execution of @main terminates without a
  fault; at the end the result buffer holds what the last boundary's contents give it — the second region's output
  array as its write-backs leave it — and every argument array is as launched.
-/
import proofs.«125016_j14216341749897_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read at the last boundary's contents: the second region's output array after its
    twenty write-backs. The arguments end as launched. -/
theorem run : θ_run defs (onTc (τ := τ) (main (F := F))) ⟨m, fun _ => 0, ρ⟩ (fun r => ∀ c : Dev nD,
      r.2.mem ((c.tc : Thread nD τ).loc main_v40) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v40 (by decide))).trans (W4_arr m ρ c 7),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.RunValue

end
-- ==== Proof.KernelStages.lean ====
/-
  The host operations of the idealized kernel's program, as functions of the argument arrays, and the arrays each
  kernel region finds when it is entered.

  Before the first region: the message weights msg_W [128,160] are cut into their first 128 and last 32 columns and
  each part transposed; the relation table is  rel_emb · W2ᵀ + msg_b  (one row per relation). Between the regions: each
  edge's message is row src(e) of the first region's product plus row rel(e) of the relation table (negative row words
  shifted up by the axis extent, then read signed and clamped by the gather); the messages are summed into their
  destination rows; the degree of a row is the sum of ones over its incoming edges, clamped below at one, and its
  reciprocal is laid out as a column; the two node weight matrices are transposed and the two biases laid out as rows.
-/
import proofs.«125016_j14216341749897_2_alg».proof.Proof.Gen.KernelIdeal.Frame
import Idealize.ShloMosaic.Lib.StableHlo.Run
import Idealize.ShloMosaic.PureOps.Ideal

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

/-! ## The stage functions -/

/-- The first 128 columns of the message weights, transposed: entry (q, k) is msg_W[k, q]. -/
def w1t (a5 : FVec Ideal S128x160 .f32) : FVec Ideal S128x128 .f32 :=
  transpose S128x128 [1, 0] (extractStridedSlice S128x128 ![0, 0] a5 slices_S128x160_S128x128_0_0) transposes_S128x128_S128x128_1_0

/-- The relation table: rel_emb times the last 32 columns of the message weights (transposed), plus the message bias
    on every row. -/
def relMsg (a4 : FVec Ideal S64x32 .f32) (a5 : FVec Ideal S128x160 .f32) (a6 : FVec Ideal S128 .f32) : FVec Ideal S64x128 .f32 :=
  addf (Host.dotGeneral (F := Ideal) dot_S64x32_S32x128_S64x128_1_0_0_1_n_n none a4
      (transpose S32x128 [1, 0] (extractStridedSlice S128x32 ![0, 128] a5 slices_S128x160_S128x32_0_128) transposes_S128x32_S32x128_1_0))
    (broadcastInDim S64x128 ![0, 1] bcast_S1x128_S64x128_0_1 (broadcastInDim S1x128 ![1] bcast_S128_S1x128_1 a6))

/-- Row words for a gather: a negative word is shifted up by the axis extent `N`; laid out as a column. -/
def rowWords (N : BitVec 32) (a : IVec S1600000 32) : IVec S1600000x1 32 :=
  broadcastInDim S1600000x1 ![0] bcast_S1600000_S1600000x1_0
    (select (cmpi .slt a (broadcastInDim S1600000 ![] bcast_S_S1600000 (constantI S_ 32 0#32)))
      (addi a (broadcastInDim S1600000 ![] bcast_S_S1600000 (constantI S_ 32 N))) a)

/-- Each edge's message: its source's row of the node product plus its relation's row of the relation table. -/
def msgs (xm : FVec Ideal S100000x128 .f32) (rm : FVec Ideal S64x128 .f32) (a1 a3 : IVec S1600000 32) : FVec Ideal S1600000x128 .f32 :=
  addf (Host.gather gather_S100000x128_S1600000x1_S1600000x128_1_0_n_n_0_1_1128 xm (rowWords 100000#32 a1))
    (Host.gather gather_S64x128_S1600000x1_S1600000x128_1_0_n_n_0_1_1128 rm (rowWords 64#32 a3))

/-- The messages summed into their destination rows, from zero. -/
def aggOf (u : FVec Ideal S1600000x128 .f32) (a2 : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 a2) u

/-- The in-degree of every row (ones summed into destination rows, from zero), clamped below at one. -/
def degClamp (a2 : IVec S1600000 32) : FVec Ideal S100000 .f32 :=
  maximumf (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 a2)
      (broadcastInDim S1600000 ![] bcast_S_S1600000 (constant (F := Ideal) S_ .f32 0x3F800000#32)))
    (broadcastInDim S100000 ![] bcast_S_S100000 (constant (F := Ideal) S_ .f32 0x3F800000#32))

/-- One over the clamped degree, as a column. -/
def invDeg (a2 : IVec S1600000 32) : FVec Ideal S100000x1 .f32 :=
  shapeCast S100000x1 (Host.divf (F := Ideal) (broadcastInDim S100000 ![] bcast_S_S100000 (constant (F := Ideal) S_ .f32 0x3F800000#32)) (degClamp a2))
    shapeCasts_S100000_S100000x1

variable (m : (ℓ : Loc nD τ sig) → Buf (Elt Ideal) ℓ) (ρ : Dev nD → PrngReg) (c : Dev nD)

/-! ## The first region's entry arrays -/

theorem v1_arg0 : V1 m ρ c main_arg0 = m ((c : Thread nD τ).loc main_arg0) := by
  show StableHlo.after hostOps0 (W0 m ρ c) (Proc.devRef .tc main_arg0) = _
  after_results

theorem v1_w1t : V1 m ρ c main_v2 = w1t (m ((c : Thread nD τ).loc main_arg5)) := by
  show StableHlo.after hostOps0 (W0 m ρ c) (Proc.devRef .tc main_v2) = _
  after_results
  rfl

theorem w1_relMsg : W1 m ρ c (Proc.devRef .tc main_v7)
    = relMsg (m ((c : Thread nD τ).loc main_arg4)) (m ((c : Thread nD τ).loc main_arg5)) (m ((c : Thread nD τ).loc main_arg6)) := by
  show StableHlo.after hostOps0 (W0 m ρ c) (Proc.devRef .tc main_v7) = _
  after_results
  rfl

/-! ## What the first region leaves -/

/-- The node product's array is what the first region's write-backs leave. -/
theorem w2_xm : W2 m ρ c (Proc.devRef .tc main_v8) = (dat0 (V1 m ρ) c).arrAt 2 cfg0.N := W2_arr m ρ c 2

/-- The relation table is not touched by the first region. -/
theorem w2_relMsg : W2 m ρ c (Proc.devRef .tc main_v7)
    = relMsg (m ((c : Thread nD τ).loc main_arg4)) (m ((c : Thread nD τ).loc main_arg5)) (m ((c : Thread nD τ).loc main_arg6)) :=
  (W2_of_ne m ρ c main_v7 (by decide)).trans (w1_relMsg m ρ c)

/-- The node features are read by the first region, never written. -/
theorem w2_arg0 : W2 m ρ c (Proc.devRef .tc main_arg0) = m ((c : Thread nD τ).loc main_arg0) :=
  (W2_arr m ρ c 0).trans (((dat0 (V1 m ρ) c).arrAt_in 0 rfl _).trans ((A_eq0 (V1 m ρ) c 0).trans (v1_arg0 m ρ c)))

theorem w2_arg1 : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)
theorem w2_arg2 : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results)
theorem w2_arg3 : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)
theorem w2_arg7 : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)
theorem w2_arg8 : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results)
theorem w2_arg9 : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results)
theorem w2_arg10 : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results)

/-! ## The second region's entry arrays -/

theorem v3_arg0 : V3 m ρ c main_arg0 = m ((c : Thread nD τ).loc main_arg0) := by
  show StableHlo.after hostOps1 (W2 m ρ c) (Proc.devRef .tc main_arg0) = _
  after_results
  exact w2_arg0 m ρ c

set_option maxHeartbeats 1000000 in
theorem v3_agg : V3 m ρ c main_v26
    = aggOf (msgs ((dat0 (V1 m ρ) c).arrAt 2 cfg0.N) (relMsg (m ((c : Thread nD τ).loc main_arg4)) (m ((c : Thread nD τ).loc main_arg5)) (m ((c : Thread nD τ).loc main_arg6)))
        (m ((c : Thread nD τ).loc main_arg1)) (m ((c : Thread nD τ).loc main_arg3))) (m ((c : Thread nD τ).loc main_arg2)) := by
  show StableHlo.after hostOps1 (W2 m ρ c) (Proc.devRef .tc main_v26) = _
  after_results_simp
  rw [w2_xm, w2_relMsg, w2_arg1, w2_arg2, w2_arg3]
  rfl

theorem v3_inv : V3 m ρ c main_v35 = invDeg (m ((c : Thread nD τ).loc main_arg2)) := by
  show StableHlo.after hostOps1 (W2 m ρ c) (Proc.devRef .tc main_v35) = _
  after_results
  rw [w2_arg2]
  rfl

theorem v3_selfWt : V3 m ρ c main_v36 = transpose S128x128 [1, 0] (m ((c : Thread nD τ).loc main_arg7)) transposes_S128x128_S128x128_1_0 := by
  show StableHlo.after hostOps1 (W2 m ρ c) (Proc.devRef .tc main_v36) = _
  after_results
  rw [w2_arg7]

theorem v3_neighWt : V3 m ρ c main_v37 = transpose S128x128 [1, 0] (m ((c : Thread nD τ).loc main_arg9)) transposes_S128x128_S128x128_1_0 := by
  show StableHlo.after hostOps1 (W2 m ρ c) (Proc.devRef .tc main_v37) = _
  after_results
  rw [w2_arg9]

theorem v3_selfB : V3 m ρ c main_v38 = shapeCast S1x128 (m ((c : Thread nD τ).loc main_arg8)) shapeCasts_S128_S1x128 := by
  show StableHlo.after hostOps1 (W2 m ρ c) (Proc.devRef .tc main_v38) = _
  after_results
  rw [w2_arg8]
  rfl

theorem v3_neighB : V3 m ρ c main_v39 = shapeCast S1x128 (m ((c : Thread nD τ).loc main_arg10)) shapeCasts_S128_S1x128 := by
  show StableHlo.after hostOps1 (W2 m ρ c) (Proc.devRef .tc main_v39) = _
  after_results
  rw [w2_arg10]
  rfl

end Cert.KernelIdeal.Stages

end
-- ==== Proof.XmValue.lean ====
/-
  The first region's value. The region multiplies the row array x [100000,128], ten blocks of 10000 rows at a time,
  by the weight array w [128,128], which every grid point reads whole: each point writes back the product of its
  row block with w. At the ideal instance a change of float format is the identity and the matrix product into a
  zero accumulator is the plain sum of products, so after the region the output array holds, at row i and column k,
  the sum over q of x[i,q] · w[q,k]. The steps: the body's payload at an index; the product as one whole-array
  function; each point's write-back is that function's block; the ten blocks cover the array (row r belongs to
  point r / 10000); the array after the region.
-/
import proofs.«125016_j14216341749897_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.XmValue

open Cert.KernelIdeal Cert.KernelIdeal.Gen
open Idealize.ShloMosaic Idealize.ShloMosaic.TcCoe Idealize.ShloMosaic.ValueIdx Idealize.SL.Sem
open Idealize.ShloMosaic.Pipeline (Dat)

/-! ## The body's payload at an index

At the ideal instance a change of float format is the identity and the matrix unit's product into a zero accumulator is
the plain sum of products over the contracted axis: entry (p, k) of the payload is ∑ q, x0[p, q] · x1[q, k]. -/

/-- The left operand's row coordinate is the output's row. -/
theorem lhs_row (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

/-- The left operand's column coordinate is the contracted index. -/
theorem lhs_col (j : S10000x128.Idx) (q : dot_S10000x128_S128x128_S10000x128_1_0_0_1_n_n.contr.Idx) :
    (dot_S10000x128_S128x128_S10000x128_1_0_0_1_n_n.lhsIdx j q 1).val = (q ⟨0, by decide⟩).val :=
  dot_S10000x128_S128x128_S10000x128_1_0_0_1_n_n.lhsIdx_val_of_single rfl j q

/-- The right operand's row coordinate is the contracted index. -/
theorem rhs_row (j : S10000x128.Idx) (q : dot_S10000x128_S128x128_S10000x128_1_0_0_1_n_n.contr.Idx) :
    (dot_S10000x128_S128x128_S10000x128_1_0_0_1_n_n.rhsIdx j q 0).val = (q ⟨0, by decide⟩).val :=
  dot_S10000x128_S128x128_S10000x128_1_0_0_1_n_n.rhsIdx_val_of_single rfl j q

/-- The right operand's column coordinate is the output's column. -/
theorem rhs_col (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry (p, k) of the body's payload: the sum over q of x0[p, q] · x1[q, k]. -/
theorem pay_apply (x0 : Vec Ideal S10000x128 .f32) (x1 : Vec Ideal S128x128 .f32) (p : Fin 10000) (k : Fin 128) :
    k0_pay1 (F := Ideal) x0 x1 (ix2 p k) = ∑ q : Fin 128, x0 (ix2 p q) * x1 (ix2 q k) := by
  unfold k0_pay1
  rw [shapeCast_self]
  refine (Ideal.matmul_constant_zero_apply dot_S10000x128_S128x128_S10000x128_1_0_0_1_n_n none _ _ (ix2 p k)).trans ?_
  rw [← Equiv.sum_comp (contrEquiv1 dot_S10000x128_S128x128_S10000x128_1_0_0_1_n_n 128 rfl rfl).symm]
  refine Finset.sum_congr rfl fun q _ => ?_
  have hq := contrEquiv1_symm_val dot_S10000x128_S128x128_S10000x128_1_0_0_1_n_n 128 rfl rfl q
  have el : dot_S10000x128_S128x128_S10000x128_1_0_0_1_n_n.lhsIdx (ix2 p k) ((contrEquiv1 dot_S10000x128_S128x128_S10000x128_1_0_0_1_n_n 128 rfl rfl).symm q) = ix2 p q := funext fun a => Fin.ext (by
    match a with
    | ⟨0, _⟩ => exact lhs_row _ _
    | ⟨1, _⟩ => exact (lhs_col _ _).trans hq)
  have er : dot_S10000x128_S128x128_S10000x128_1_0_0_1_n_n.rhsIdx (ix2 p k) ((contrEquiv1 dot_S10000x128_S128x128_S10000x128_1_0_0_1_n_n 128 rfl rfl).symm q) = ix2 q k := funext fun a => Fin.ext (by
    match a with
    | ⟨0, _⟩ => exact (rhs_row _ _).trans hq
    | ⟨1, _⟩ => exact rhs_col _ _)
  rw [el, er]
  rfl

/-! ## The region's result as one function of the two arrays -/

/-- Entry (r, k) of the product of the row array and the weight array: the sum over q of x[r, q] · w[q, k]. -/
def xm (X : FVec Ideal S100000x128 .f32) (Wt : FVec Ideal S128x128 .f32) : FVec Ideal S100000x128 .f32 :=
  fun i => ∑ q : Fin 128, X (ix2 (⟨(i 0).val, idx2_lt0 i⟩ : Fin 100000) q) * Wt (ix2 q (⟨(i 1).val, idx2_lt1 i⟩ : Fin 128))

/-- The body's accesses start at offset zero on both axes. -/
theorem off_zero : (![0, 0] : Fin 2 → Nat) = fun _ => 0 := funext fun a => by fin_cases a <;> rfl

/-- The three index maps, decided over the ten grid points: the row blocks of the input and of the output move with
    the point, on the column axis every block index is zero, and the weight array's one block never moves. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b)) (c : Dev nD)
variable (X : FVec Ideal S100000x128 .f32) (Wt : FVec Ideal S128x128 .f32)

/-- Row p of the input's block at point t is row 10000·t + p of the row array. -/
theorem xblk_apply (hX : V c main_arg0 = X) (t : Fin cfg0.N) (p : Fin 10000) (q : Fin 128)
    (r : Fin 100000) (hr : r.val = t.val * 10000 + p.val) :
    (iblk0 (F := Ideal) V c 0 t : Vec Ideal S10000x128 .f32) (ix2 p q) = X (ix2 r q) := by
  obtain ⟨e0, e1, -⟩ := idx_facts t
  unfold iblk0
  rw [View.read_apply]
  show V c main_arg0 (((cfg0.win 0).blk t).view.emb (ix2 p q)) = X (ix2 r q)
  rw [hX]
  refine congrArg X ?_
  funext a; apply Fin.ext
  match a with
  | ⟨0, _⟩ => show win0_0.index t (0 : Fin 2) * 10000 + 1 * p.val = r.val; omega
  | ⟨1, _⟩ => show win0_0.index t (1 : Fin 2) * 128 + 1 * q.val = q.val; omega

/-- The weight array's block at every point is the whole array. -/
theorem wblk_apply (hW : V c main_v2 = Wt) (t : Fin cfg0.N) (q : Fin 128) (k : Fin 128)
    (k' : Fin 128) (hk : k'.val = k.val) :
    (iblk0 (F := Ideal) V c 1 t : Vec Ideal S128x128 .f32) (ix2 q k) = Wt (ix2 q k') := by
  obtain ⟨-, -, e2, e3, -⟩ := idx_facts t
  unfold iblk0
  rw [View.read_apply]
  show V c main_v2 (((cfg0.win 1).blk t).view.emb (ix2 q k)) = Wt (ix2 q k')
  rw [hW]
  refine congrArg Wt ?_
  funext a; apply Fin.ext
  match a with
  | ⟨0, _⟩ => show win0_1.index t (0 : Fin 2) * 128 + 1 * q.val = q.val; omega
  | ⟨1, _⟩ => show win0_1.index t (1 : Fin 2) * 128 + 1 * k.val = k'.val; omega

/-- What point t writes back is block t of the product. -/
theorem flushed_eq (hX : V c main_arg0 = X) (hW : V c main_v2 = Wt) (t : Fin cfg0.N) :
    (dat0 (F := Ideal) V c).flushed 2 t = ((cfg0.win 2).blk t).view.read (Elt Ideal) (xm X Wt) := by
  show (cfg0.win 2).cut (grid0.coords t) ((dat0 (F := Ideal) V c).after 2 t) = _
  rw [after0_2]
  unfold out0_2
  rw [View.canon_unit_zero off_zero]
  simp only [View.ld_unit_zero (S := S10000x128) off_zero, View.ld_unit_zero (S := S128x128) off_zero]
  obtain ⟨-, -, -, -, e4, e5⟩ := idx_facts t
  refine funext fun (j : S10000x128.Idx) => ?_
  obtain ⟨p, k, rfl⟩ : ∃ (p : Fin 10000) (k : Fin 128), j = ix2 p k := ⟨j 0, j 1, eq_ix2 j⟩
  show k0_pay1 (iblk0 V c 0 t) (iblk0 V c 1 t) (ix2 p k) = xm X Wt (((cfg0.win 2).blk t).view.emb (ix2 p k))
  refine (pay_apply _ _ p k).trans ?_
  unfold xm
  refine Finset.sum_congr rfl fun q _ => ?_
  refine congrArg₂ (· * ·) (xblk_apply V c X hX t p q _ ?_) (wblk_apply V c Wt hW t q k _ ?_)
  · show win0_2.index t (0 : Fin 2) * 10000 + 1 * p.val = t.val * 10000 + p.val; omega
  · show win0_2.index t (1 : Fin 2) * 128 + 1 * k.val = k.val; omega

/-! ## The blocks cover the array -/

/-- An index of the output array is in point t's block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v8).slice (win0_2.rect t)).set ↔ _
  rw [View.set_slice_whole, Rect.mem_set_unit]
  exact Iff.rfl

/-- Row r of the output array is written back by point r / 10000. -/
theorem cover (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : grid0.N = 10 := N_0
  obtain ⟨t, ht⟩ : ∃ t : Fin cfg0.N, t.val = (i 0).val / 10000 := ⟨⟨(i 0).val / 10000, by show _ < grid0.N; rw [hN]; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-! ## The output array after the region -/

/-- After the region the output array holds, at row i and column k, the sum over q of x[i, q] · w[q, k]. -/
theorem xm_arr (hX : V c main_arg0 = X) (hW : V c main_v2 = Wt) (i : Fin 100000) (k : Fin 128) :
    (dat0 (F := Ideal) V c).arrAt 2 cfg0.N (ix2 i k) = ∑ q : Fin 128, X (ix2 i q) * Wt (ix2 q k) := by
  rw [(dat0 (F := Ideal) V c).arrAt_eq_of_cover 2 (xm X Wt) (fun t _ => flushed_eq V c X Wt hX hW t) cover]
  rfl

end Cert.KernelIdeal.XmValue

end
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.NodeValue.lean ====
/-
  The second kernel region as one whole-array function: every row of the output is the rectified sum of the row of
  `x` times the self weights plus the self bias, and of the row of aggregated messages, scaled by the row's inverse
  degree, times the neighbour weights plus the neighbour bias.
-/
import proofs.«125016_j14216341749897_2_alg».proof.Proof.Gen.KernelIdeal.Frame
import proofs.«125016_j14216341749897_2_alg».proof.Proof.LibColumnForms
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.NodeValue

open Idealize.ShloMosaic Idealize.ShloMosaic.TcCoe Idealize.ShloMosaic.ValueIdx Idealize.SL.Sem
open Idealize.ShloMosaic.Pipeline (Dat)
open Cert.KernelIdeal Cert.KernelIdeal.Gen

/-- The left factor's index on its free axis is the output row. -/
theorem lhs_free (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The left factor's index on its contracted axis is the contraction coordinate. -/
theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- The right factor's index on its contracted axis is the contraction coordinate. -/
theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- The right factor's index on its free axis is the output lane. -/
theorem rhs_free (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128] by [128,128] product into a zero accumulator, read at row `p` and lane `j`: the sum over the
    contracted axis of the products of row `p` of the left factor with column `j` of the right one. -/
theorem matmul_rows_apply (a : FVec Ideal S5000x128 .bf16) (b : FVec Ideal S128x128 .bf16) (p : Fin 5000) (j : Fin 128) :
    matmul dot_S5000x128_S128x128_S5000x128_1_0_0_1_n_n none a b (constant S5000x128 .f32 0x00000000#32) (ix2 p j)
      = ∑ q : Fin 128, a (ix2 p q) * b (ix2 q j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p j) ((contrEquiv1 dot_S5000x128_S128x128_S5000x128_1_0_0_1_n_n 128 rfl rfl).symm k) = ix2 p k := funext fun ax => Fin.ext (by
    match ax with
    | ⟨0, _⟩ => exact lhs_free _ _
    | ⟨1, _⟩ => exact (lhs_contr _ _).trans hk)
  have er : dot_S5000x128_S128x128_S5000x128_1_0_0_1_n_n.rhsIdx (ix2 p j) ((contrEquiv1 dot_S5000x128_S128x128_S5000x128_1_0_0_1_n_n 128 rfl rfl).symm k) = ix2 k j := funext fun ax => Fin.ext (by
    match ax with
    | ⟨0, _⟩ => exact (rhs_contr _ _).trans hk
    | ⟨1, _⟩ => exact rhs_free _ _)
  rw [el, er]

/-- The body's result at row `p` and lane `j` of its blocks: the two products into zero accumulators, each with its
    bias row added, summed and rectified; a change of float format and a cast to the same shape are identities, a
    bias row [1,128] is read at its one row and the inverse-degree column [5000,1] at its one lane. -/
theorem pay_apply (v0 v2 : Vec Ideal S5000x128 .f32) (v4 : Vec Ideal S5000x1 .f32) (v9 v12 : Vec Ideal S128x128 .f32)
    (v16 v21 : Vec Ideal S1x128 .f32) (p : Fin 5000) (j : Fin 128) :
    k1_pay1 (F := Ideal) v0 v2 v4 v9 v12 v16 v21 (ix2 p j)
      = max (((∑ q : Fin 128, v0 (ix2 p q) * v9 (ix2 q j)) + v16 (ix2 0 j))
          + ((∑ q : Fin 128, (v2 (ix2 p q) * v4 (ix2 p 0)) * v12 (ix2 q j)) + v21 (ix2 0 j))) (0 : EReal) := by
  have e1 := matmul_rows_apply (truncf .bf16 v0 bitsLt_bf16_f32)
    (truncf .bf16 (shapeCast S128x128 v9 shapeCasts_S128x128_S128x128) bitsLt_bf16_f32) p j
  have e2 := matmul_rows_apply
    (truncf .bf16 (mulf (shapeCast S5000x128 v2 shapeCasts_S5000x128_S5000x128)
      (broadcastTo S5000x128 (shapeCast S5000x1 v4 shapeCasts_S5000x1_S5000x1) broadcasts_S5000x1_S5000x128)) bitsLt_bf16_f32)
    (truncf .bf16 (shapeCast S128x128 v12 shapeCasts_S128x128_S128x128) bitsLt_bf16_f32) p j
  have b1 := broadcastTo_1b_ab_apply (shapeCast S1x128 v16 shapeCasts_S1x128_S1x128) broadcasts_S1x128_S5000x128 p j
  have b2 := broadcastTo_1b_ab_apply (shapeCast S1x128 v21 shapeCasts_S1x128_S1x128) broadcasts_S1x128_S5000x128 p j
  have hcol : ∀ q : Fin 128, broadcastTo S5000x128 v4 broadcasts_S5000x1_S5000x128 (ix2 p q) = v4 (ix2 p 0) := fun q =>
    ValueLayout.broadcastTo_a1_ab_apply v4 broadcasts_S5000x1_S5000x128 p q
  unfold k1_pay1
  refine (congrArg₂ max (congrArg₂ (· + ·) (congrArg₂ (· + ·) e1 b1) (congrArg₂ (· + ·) e2 b2)) Ideal.ofBits_zero_f32).trans ?_
  simp only [shapeCast_self]
  refine congrArg₂ max (congrArg₂ (· + ·) rfl (congrArg₂ (· + ·) (Finset.sum_congr rfl fun q _ => ?_) rfl)) rfl
  show (v2 (ix2 p q) * _) * v12 (ix2 q j) = _
  rw [hcol q]

/-- The node update at row `n` and lane `j`: `relu((x W_self^T + b_self) + ((agg * inv_deg) W_neigh^T + b_neigh))`,
    the weights given transposed and the biases as rows. -/
def nodeAt (X AGG : FVec Ideal S100000x128 .f32) (INV : FVec Ideal S100000x1 .f32) (SWt NWt : FVec Ideal S128x128 .f32)
    (SBr NBr : FVec Ideal S1x128 .f32) (n : Fin 100000) (j : Fin 128) : EReal :=
  max (((∑ q : Fin 128, X (ix2 n q) * SWt (ix2 q j)) + SBr (ix2 0 j))
    + ((∑ q : Fin 128, (AGG (ix2 n q) * INV (ix2 n 0)) * NWt (ix2 q j)) + NBr (ix2 0 j))) (0 : EReal)

/-- The same as one function of the output array's index. -/
def nodeFn (X AGG : FVec Ideal S100000x128 .f32) (INV : FVec Ideal S100000x1 .f32) (SWt NWt : FVec Ideal S128x128 .f32)
    (SBr NBr : FVec Ideal S1x128 .f32) : S100000x128.Idx → EReal :=
  fun i => nodeAt X AGG INV SWt NWt SBr NBr ⟨(i 0).val, (i 0).isLt⟩ ⟨(i 1).val, (i 1).isLt⟩

/-- The body's result at row `p` of its blocks is the node update at row `n` of the arrays, once each block it reads
    holds the arrays' entries that row `n` needs. -/
theorem pay_rows (X AGG : FVec Ideal S100000x128 .f32) (INV : FVec Ideal S100000x1 .f32) (SWt NWt : FVec Ideal S128x128 .f32)
    (SBr NBr : FVec Ideal S1x128 .f32)
    (x0 x1 : Vec Ideal S5000x128 .f32) (x2 : Vec Ideal S5000x1 .f32) (x3 x5 : Vec Ideal S128x128 .f32) (x4 x6 : Vec Ideal S1x128 .f32)
    (n : Fin 100000) (p : Fin 5000) (j : Fin 128)
    (e0 : ∀ q : Fin 128, x0 (ix2 p q) = X (ix2 n q)) (e1 : ∀ q : Fin 128, x1 (ix2 p q) = AGG (ix2 n q))
    (e2 : x2 (ix2 p 0) = INV (ix2 n 0))
    (e3 : ∀ q : Fin 128, x3 (ix2 q j) = SWt (ix2 q j)) (e5 : ∀ q : Fin 128, x5 (ix2 q j) = NWt (ix2 q j))
    (e4 : x4 (ix2 0 j) = SBr (ix2 0 j)) (e6 : x6 (ix2 0 j) = NBr (ix2 0 j)) :
    k1_pay1 (F := Ideal) x0 x1 x2 x3 x5 x4 x6 (ix2 p j) = nodeAt X AGG INV SWt NWt SBr NBr n j := by
  rw [pay_apply, e2, e4, e6]
  unfold nodeAt
  simp only [e0, e1, e3, e5]

theorem hz : (![0, 0] : Fin 2 → Nat) = fun _ => 0 := funext fun a => by fin_cases a <;> rfl

/-- The printed index maps, decided over the grid: the three row-blocked inputs and the output are at block `(t, 0)`
    at point `t`, the weights and biases at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

section Blocks

variable (V : (c : Dev nD) → (b : Ref sig .tc) → Buf (Elt Ideal) ((c : Thread nD τ).loc b)) (c : Dev nD)

/-- The block of `x` at point `t` holds rows `5000 t … 5000 t + 4999` of the array. -/
theorem blk0_apply (t : Fin cfg1.N) (p : Fin 5000) (q : Fin 128) (n : Fin 100000) (hn : n.val = t.val * 5000 + p.val) :
    (iblk1 (F := Ideal) V c 0 t : Vec Ideal S5000x128 .f32) (ix2 p q) = (V c main_arg0 : S100000x128.Idx → Elt Ideal .f32) (ix2 n q) := by
  obtain ⟨f0, f1, -⟩ := idx_facts t
  unfold iblk1
  rw [View.read_apply]
  show V c main_arg0 (((cfg1.win 0).blk t).view.emb (ix2 p q)) = V c main_arg0 (ix2 n q)
  refine congrArg (V c main_arg0) (funext fun a => Fin.ext ?_)
  match a with
  | ⟨0, _⟩ => show win1_0.index t (0 : Fin 2) * 5000 + 1 * p.val = n.val; omega
  | ⟨1, _⟩ => show win1_0.index t (1 : Fin 2) * 128 + 1 * q.val = q.val; omega

/-- The block of aggregated messages at point `t` holds rows `5000 t … 5000 t + 4999` of the array. -/
theorem blk1_apply (t : Fin cfg1.N) (p : Fin 5000) (q : Fin 128) (n : Fin 100000) (hn : n.val = t.val * 5000 + p.val) :
    (iblk1 (F := Ideal) V c 1 t : Vec Ideal S5000x128 .f32) (ix2 p q) = (V c main_v26 : S100000x128.Idx → Elt Ideal .f32) (ix2 n q) := by
  obtain ⟨-, -, f0, f1, -⟩ := idx_facts t
  unfold iblk1
  rw [View.read_apply]
  show V c main_v26 (((cfg1.win 1).blk t).view.emb (ix2 p q)) = V c main_v26 (ix2 n q)
  refine congrArg (V c main_v26) (funext fun a => Fin.ext ?_)
  match a with
  | ⟨0, _⟩ => show win1_1.index t (0 : Fin 2) * 5000 + 1 * p.val = n.val; omega
  | ⟨1, _⟩ => show win1_1.index t (1 : Fin 2) * 128 + 1 * q.val = q.val; omega

/-- The block of inverse degrees at point `t` holds rows `5000 t … 5000 t + 4999` of the column. -/
theorem blk2_apply (t : Fin cfg1.N) (p : Fin 5000) (u : Fin 1) (n : Fin 100000) (hn : n.val = t.val * 5000 + p.val) :
    (iblk1 (F := Ideal) V c 2 t : Vec Ideal S5000x1 .f32) (ix2 p u) = (V c main_v35 : S100000x1.Idx → Elt Ideal .f32) (ix2 n u) := by
  obtain ⟨-, -, -, -, f0, f1, -⟩ := idx_facts t
  unfold iblk1
  rw [View.read_apply]
  show V c main_v35 (((cfg1.win 2).blk t).view.emb (ix2 p u)) = V c main_v35 (ix2 n u)
  refine congrArg (V c main_v35) (funext fun a => Fin.ext ?_)
  match a with
  | ⟨0, _⟩ => show win1_2.index t (0 : Fin 2) * 5000 + 1 * p.val = n.val; omega
  | ⟨1, _⟩ => show win1_2.index t (1 : Fin 2) * 1 + 1 * u.val = u.val; omega

/-- The self weights' one block is the whole array. -/
theorem blk3_apply (t : Fin cfg1.N) (q j : Fin 128) :
    (iblk1 (F := Ideal) V c 3 t : Vec Ideal S128x128 .f32) (ix2 q j) = (V c main_v36 : S128x128.Idx → Elt Ideal .f32) (ix2 q j) := by
  obtain ⟨-, -, -, -, -, -, f0, f1, -⟩ := idx_facts t
  unfold iblk1
  rw [View.read_apply]
  show V c main_v36 (((cfg1.win 3).blk t).view.emb (ix2 q j)) = V c main_v36 (ix2 q j)
  refine congrArg (V c main_v36) (funext fun a => Fin.ext ?_)
  match a with
  | ⟨0, _⟩ => show win1_3.index t (0 : Fin 2) * 128 + 1 * q.val = q.val; omega
  | ⟨1, _⟩ => show win1_3.index t (1 : Fin 2) * 128 + 1 * j.val = j.val; omega

/-- The self bias row's one block is the whole row. -/
theorem blk4_apply (t : Fin cfg1.N) (u : Fin 1) (j : Fin 128) :
    (iblk1 (F := Ideal) V c 4 t : Vec Ideal S1x128 .f32) (ix2 u j) = (V c main_v38 : S1x128.Idx → Elt Ideal .f32) (ix2 u j) := by
  obtain ⟨-, -, -, -, -, -, -, -, f0, f1, -⟩ := idx_facts t
  unfold iblk1
  rw [View.read_apply]
  show V c main_v38 (((cfg1.win 4).blk t).view.emb (ix2 u j)) = V c main_v38 (ix2 u j)
  refine congrArg (V c main_v38) (funext fun a => Fin.ext ?_)
  match a with
  | ⟨0, _⟩ => show win1_4.index t (0 : Fin 2) * 1 + 1 * u.val = u.val; omega
  | ⟨1, _⟩ => show win1_4.index t (1 : Fin 2) * 128 + 1 * j.val = j.val; omega

/-- The neighbour weights' one block is the whole array. -/
theorem blk5_apply (t : Fin cfg1.N) (q j : Fin 128) :
    (iblk1 (F := Ideal) V c 5 t : Vec Ideal S128x128 .f32) (ix2 q j) = (V c main_v37 : S128x128.Idx → Elt Ideal .f32) (ix2 q j) := by
  obtain ⟨-, -, -, -, -, -, -, -, -, -, f0, f1, -⟩ := idx_facts t
  unfold iblk1
  rw [View.read_apply]
  show V c main_v37 (((cfg1.win 5).blk t).view.emb (ix2 q j)) = V c main_v37 (ix2 q j)
  refine congrArg (V c main_v37) (funext fun a => Fin.ext ?_)
  match a with
  | ⟨0, _⟩ => show win1_5.index t (0 : Fin 2) * 128 + 1 * q.val = q.val; omega
  | ⟨1, _⟩ => show win1_5.index t (1 : Fin 2) * 128 + 1 * j.val = j.val; omega

/-- The neighbour bias row's one block is the whole row. -/
theorem blk6_apply (t : Fin cfg1.N) (u : Fin 1) (j : Fin 128) :
    (iblk1 (F := Ideal) V c 6 t : Vec Ideal S1x128 .f32) (ix2 u j) = (V c main_v39 : S1x128.Idx → Elt Ideal .f32) (ix2 u j) := by
  obtain ⟨-, -, -, -, -, -, -, -, -, -, -, -, f0, f1, -⟩ := idx_facts t
  unfold iblk1
  rw [View.read_apply]
  show V c main_v39 (((cfg1.win 6).blk t).view.emb (ix2 u j)) = V c main_v39 (ix2 u j)
  refine congrArg (V c main_v39) (funext fun a => Fin.ext ?_)
  match a with
  | ⟨0, _⟩ => show win1_6.index t (0 : Fin 2) * 1 + 1 * u.val = u.val; omega
  | ⟨1, _⟩ => show win1_6.index t (1 : Fin 2) * 128 + 1 * j.val = j.val; omega

end Blocks

section Array

variable (V : (c : Dev nD) → (b : Ref sig .tc) → Buf (Elt Ideal) ((c : Thread nD τ).loc b)) (c : Dev nD)
  (X AGG : FVec Ideal S100000x128 .f32) (INV : FVec Ideal S100000x1 .f32) (SWt NWt : FVec Ideal S128x128 .f32)
  (SBr NBr : FVec Ideal S1x128 .f32)

/-- What point `t` writes back is block `t` of the node update of the arrays as the region finds them. -/
theorem flushed_eq (h0 : V c main_arg0 = X) (h1 : V c main_v26 = AGG) (h2 : V c main_v35 = INV) (h3 : V c main_v36 = SWt)
    (h4 : V c main_v38 = SBr) (h5 : V c main_v37 = NWt) (h6 : V c main_v39 = NBr) (t : Fin cfg1.N) :
    (dat1 (F := Ideal) V c).flushed 7 t
      = ((cfg1.win 7).blk t).view.read (Elt Ideal) (nodeFn X AGG INV SWt NWt SBr NBr) := by
  show (cfg1.win 7).cut (grid1.coords t) ((dat1 V c).after 7 t) = _
  rw [after1_7]
  unfold out1_7
  rw [View.canon_unit_zero hz]
  simp only [View.ld_unit_zero (S := S5000x128) hz, View.ld_unit_zero (S := S5000x1) hz,
    View.ld_unit_zero (S := S128x128) hz, View.ld_unit_zero (S := S1x128) hz]
  funext y
  have hy0 : (y 0).val < 5000 := (y 0).isLt
  have hy1 : (y 1).val < 128 := (y 1).isLt
  have ht : t.val < 20 := by have h := t.isLt; have hN : cfg1.N = 20 := N_1; omega
  have hx : (cfg1.win 7).xinj (grid1.coords t) y = ix2 (⟨(y 0).val, hy0⟩ : Fin 5000) (⟨(y 1).val, hy1⟩ : Fin 128) :=
    funext fun a => by
      match a with
      | ⟨0, _⟩ => rfl
      | ⟨1, _⟩ => rfl
  show k1_pay1 (iblk1 V c 0 t) (iblk1 V c 1 t) (iblk1 V c 2 t) (iblk1 V c 3 t) (iblk1 V c 5 t) (iblk1 V c 4 t) (iblk1 V c 6 t)
      ((cfg1.win 7).xinj (grid1.coords t) y) = nodeFn X AGG INV SWt NWt SBr NBr (((cfg1.win 7).blk t).view.emb y)
  rw [hx]
  refine (pay_rows X AGG INV SWt NWt SBr NBr (iblk1 V c 0 t) (iblk1 V c 1 t) (iblk1 V c 2 t) (iblk1 V c 3 t) (iblk1 V c 5 t)
    (iblk1 V c 4 t) (iblk1 V c 6 t) ⟨t.val * 5000 + (y 0).val, by omega⟩ ⟨(y 0).val, hy0⟩ ⟨(y 1).val, hy1⟩
    (fun q => ?_) (fun q => ?_) ?_ (fun q => ?_) (fun q => ?_) ?_ ?_).trans ?_
  · rw [← h0]; exact blk0_apply V c t _ q _ rfl
  · rw [← h1]; exact blk1_apply V c t _ q _ rfl
  · rw [← h2]; exact blk2_apply V c t _ 0 _ rfl
  · rw [← h3]; exact blk3_apply V c t q _
  · rw [← h5]; exact blk5_apply V c t q _
  · rw [← h4]; exact blk4_apply V c t 0 _
  · rw [← h6]; exact blk6_apply V c t 0 _
  · obtain ⟨-, -, -, -, -, -, -, -, -, -, -, -, -, -, f0, f1⟩ := idx_facts t
    unfold nodeFn
    refine congrArg₂ (nodeAt X AGG INV SWt NWt SBr NBr) (Fin.ext ?_) (Fin.ext ?_)
    · show t.val * 5000 + (y 0).val = win1_7.index t (0 : Fin 2) * 5000 + 1 * (y 0).val; omega
    · show (y 1).val = win1_7.index t (1 : Fin 2) * 128 + 1 * (y 1).val; omega

/-- An index of the output array is in point `t`'s block iff each coordinate is in the block's range on its axis. -/
theorem mem_blk (t : Fin cfg1.N) (i : S100000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v40).slice (win1_7.rect t)).set ↔ _
  rw [View.set_slice_whole, Rect.mem_set_unit]
  exact Iff.rfl

/-- Every index of the output array is in some point's block: row `r` is in the block of point `r / 5000`. -/
theorem cover (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, -, -, f0, f1⟩ := idx_facts t
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- The output array after the region is the node update of the arrays the region found, entry by entry. -/
theorem node_arr (h0 : V c main_arg0 = X) (h1 : V c main_v26 = AGG) (h2 : V c main_v35 = INV) (h3 : V c main_v36 = SWt)
    (h4 : V c main_v38 = SBr) (h5 : V c main_v37 = NWt) (h6 : V c main_v39 = NBr) (n : Fin 100000) (j : Fin 128) :
    (dat1 (F := Ideal) V c).arrAt 7 cfg1.N (ix2 n j) =
      max (((∑ q : Fin 128, X (ix2 n q) * SWt (ix2 q j)) + SBr (ix2 0 j))
           + ((∑ q : Fin 128, (AGG (ix2 n q) * INV (ix2 n 0)) * NWt (ix2 q j)) + NBr (ix2 0 j))) (0 : EReal) := by
  rw [(dat1 (F := Ideal) V c).arrAt_eq_of_cover 7 (nodeFn X AGG INV SWt NWt SBr NBr)
    (fun t _ => flushed_eq V c X AGG INV SWt NWt SBr NBr h0 h1 h2 h3 h4 h5 h6 t) cover]
  rfl

end Array

end Cert.KernelIdeal.NodeValue

end
-- ==== Proof.LibRowScatterGather.lean ====
/-
  Row scatters and row gathers read by coordinates.

  `x.at[rows].add(u)` on a vector `x : [N]` and on a matrix `x : [N, C]` (jax's segment sum), with the row numbers
  given as a column `[E, 1]` of signed words: update `e` (or its entry `(e, f)`) lands on row `i` (entry `(i, f')`)
  exactly when the word of row `e` reads, signed, as `i` (and `f = f'`); no clamping, an update outside is dropped.
  `x[rows]` on a matrix `[N, C]`, and the cell gather `x[rows, 0]` on a column `[N, 1]`: the row read is the word of
  row `e`, signed and clamped into `[0, N - 1]`.
-/
import Idealize.ShloMosaic.PureOps.Ideal.Laws
import Idealize.ShloMosaic.Lib.ValueIdx

namespace Idealize.ShloMosaic.ValueIdx

open Idealize.ShloMosaic

variable {N E C w : ℕ}

/-! ## The scatter of a vector's rows -/

/-- The dimension numbers of `x.at[rows].add(u)` for `x : [N]`, `rows : [E, 1]`, `u : [E]`. -/
abbrev addRows1 (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem addRows1_start (wf : ScatterDims.WF ⟨1, ![N]⟩ ⟨2, ![E, 1]⟩ ⟨1, ![E]⟩ [] [0] [0] 1)
    (idx : IVec ⟨2, ![E, 1]⟩ w) (e : Fin E) :
    (addRows1 N E wf).start (ix1 e) idx 0 = (idx (ix2 e 0)).toInt := by
  unfold ScatterDims.start
  rw [dif_pos (show (0 : Fin 1) ∈ (addRows1 N E wf).scatterDimsToOperandDims from List.mem_singleton.mpr rfl)]
  have hsi : (addRows1 N E wf).siIdx (ix1 e) ⟨List.idxOf (0 : Fin 1) (addRows1 N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem addRows1_window (wf : ScatterDims.WF ⟨1, ![N]⟩ ⟨2, ![E, 1]⟩ ⟨1, ![E]⟩ [] [0] [0] 1) (e : Fin E) :
    (addRows1 N E wf).window (ix1 e) 0 = 0 := by
  unfold ScatterDims.window
  rw [dif_neg (by simp [Shape.kept])]

/-- Update `e` of a vector's row scatter lands on `i` exactly when row `e`'s word reads, signed, as `i`. -/
theorem addRows1_lands (wf : ScatterDims.WF ⟨1, ![N]⟩ ⟨2, ![E, 1]⟩ ⟨1, ![E]⟩ [] [0] [0] 1)
    (idx : IVec ⟨2, ![E, 1]⟩ w) (e : Fin E) (i : Fin N) :
    (addRows1 N E wf).resultIdx? (ix1 e) idx = some (ix1 i) ↔ (idx (ix2 e 0)).toInt = (i.val : ℤ) := by
  unfold ScatterDims.resultIdx?
  split
  · rename_i h
    rw [Option.some.injEq]
    constructor
    · intro heq
      have h1 : ((addRows1 N E wf).start (ix1 e) idx 0 + ((addRows1 N E wf).window (ix1 e) 0 : ℕ)).toNat = i.val :=
        congrArg Fin.val (congrFun heq 0)
      have h0 := (h 0).1
      rw [addRows1_start, addRows1_window] at h1 h0
      omega
    · intro hval
      funext a
      obtain rfl : a = 0 := Subsingleton.elim _ _
      apply Fin.ext
      show ((addRows1 N E wf).start (ix1 e) idx 0 + ((addRows1 N E wf).window (ix1 e) 0 : ℕ)).toNat = i.val
      rw [addRows1_start, addRows1_window, hval]
      omega
  · rename_i h
    constructor
    · intro h'; exact absurd h' (by simp)
    · intro hval
      exfalso; apply h
      intro a
      obtain rfl : a = 0 := Subsingleton.elim _ _
      rw [addRows1_start, addRows1_window, hval]
      have := i.isLt
      show 0 ≤ (i.val : ℤ) + ((0 : ℕ) : ℤ) ∧ (i.val : ℤ) + ((0 : ℕ) : ℤ) < ((N : ℕ) : ℤ)
      omega

/-! ## The scatter of a matrix's rows -/

/-- The dimension numbers of `x.at[rows].add(u)` for `x : [N, C]`, `rows : [E, 1]`, `u : [E, C]`. -/
abbrev addRows2 (N C E : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem addRows2_start0 (wf : ScatterDims.WF ⟨2, ![N, C]⟩ ⟨2, ![E, 1]⟩ ⟨2, ![E, C]⟩ [1] [0] [0] 1)
    (idx : IVec ⟨2, ![E, 1]⟩ w) (e : Fin E) (f : Fin C) :
    (addRows2 N C E wf).start (ix2 e f) idx 0 = (idx (ix2 e 0)).toInt := by
  unfold ScatterDims.start
  rw [dif_pos (show (0 : Fin 2) ∈ (addRows2 N C E wf).scatterDimsToOperandDims from List.mem_singleton.mpr rfl)]
  have hsi : (addRows2 N C E wf).siIdx (ix2 e f) ⟨List.idxOf (0 : Fin 2) (addRows2 N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem addRows2_start1 (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (addRows2 N C E wf).start j idx 1 = 0 := by
  unfold ScatterDims.start
  rw [dif_neg (by simp)]

theorem addRows2_window0 (wf : ScatterDims.WF ⟨2, ![N, C]⟩ ⟨2, ![E, 1]⟩ ⟨2, ![E, C]⟩ [1] [0] [0] 1)
    (j : (⟨2, ![E, C]⟩ : Shape).Idx) : (addRows2 N C E wf).window j 0 = 0 := by
  unfold ScatterDims.window
  rw [dif_neg (by simp [Shape.kept])]

theorem addRows2_window1 (wf : ScatterDims.WF ⟨2, ![N, C]⟩ ⟨2, ![E, 1]⟩ ⟨2, ![E, C]⟩ [1] [0] [0] 1)
    (e : Fin E) (f : Fin C) : (addRows2 N C E wf).window (ix2 e f) 1 = f.val := by
  unfold ScatterDims.window
  rw [dif_pos (by simp [Shape.kept])]
  rfl

/-- Entry `(e, f)` of a matrix's row scatter lands on `(i, f')` exactly when row `e`'s word reads, signed, as `i`, and
    `f = f'`. -/
theorem addRows2_lands (wf : ScatterDims.WF ⟨2, ![N, C]⟩ ⟨2, ![E, 1]⟩ ⟨2, ![E, C]⟩ [1] [0] [0] 1)
    (idx : IVec ⟨2, ![E, 1]⟩ w) (e : Fin E) (f : Fin C) (i : Fin N) (f' : Fin C) :
    (addRows2 N C E wf).resultIdx? (ix2 e f) idx = some (ix2 i f') ↔ (idx (ix2 e 0)).toInt = (i.val : ℤ) ∧ f = f' := by
  unfold ScatterDims.resultIdx?
  split
  · rename_i h
    rw [Option.some.injEq]
    constructor
    · intro heq
      have h1 : ((addRows2 N C E wf).start (ix2 e f) idx 0 + ((addRows2 N C E wf).window (ix2 e f) 0 : ℕ)).toNat = i.val :=
        congrArg Fin.val (congrFun heq 0)
      have h2 : ((addRows2 N C E wf).start (ix2 e f) idx 1 + ((addRows2 N C E wf).window (ix2 e f) 1 : ℕ)).toNat = f'.val :=
        congrArg Fin.val (congrFun heq 1)
      have h0 := (h 0).1
      rw [addRows2_start0, addRows2_window0] at h1 h0
      rw [addRows2_start1, addRows2_window1] at h2
      exact ⟨by omega, Fin.ext (by omega)⟩
    · rintro ⟨hval, rfl⟩
      funext a
      apply Fin.ext
      match a with
      | ⟨0, _⟩ =>
        show ((addRows2 N C E wf).start (ix2 e f) idx 0 + ((addRows2 N C E wf).window (ix2 e f) 0 : ℕ)).toNat = i.val
        rw [addRows2_start0, addRows2_window0, hval]; omega
      | ⟨1, _⟩ =>
        show ((addRows2 N C E wf).start (ix2 e f) idx 1 + ((addRows2 N C E wf).window (ix2 e f) 1 : ℕ)).toNat = f.val
        rw [addRows2_start1, addRows2_window1]; omega
  · rename_i h
    constructor
    · intro h'; exact absurd h' (by simp)
    · rintro ⟨hval, rfl⟩
      exfalso; apply h
      intro a
      match a with
      | ⟨0, _⟩ =>
        have := i.isLt
        show 0 ≤ (addRows2 N C E wf).start (ix2 e f) idx 0 + ((addRows2 N C E wf).window (ix2 e f) 0 : ℕ)
          ∧ (addRows2 N C E wf).start (ix2 e f) idx 0 + ((addRows2 N C E wf).window (ix2 e f) 0 : ℕ) < ((N : ℕ) : ℤ)
        rw [addRows2_start0, addRows2_window0, hval]; omega
      | ⟨1, _⟩ =>
        have := f.isLt
        show 0 ≤ (addRows2 N C E wf).start (ix2 e f) idx 1 + ((addRows2 N C E wf).window (ix2 e f) 1 : ℕ)
          ∧ (addRows2 N C E wf).start (ix2 e f) idx 1 + ((addRows2 N C E wf).window (ix2 e f) 1 : ℕ) < ((C : ℕ) : ℤ)
        rw [addRows2_start1, addRows2_window1]; omega

/-! ## The two scatter-adds at an index, as sums over the updates' rows -/

/-- A rank-1 index set is its one coordinate's range, so a sum over it is the sum over the coordinate. -/
theorem sum_idx1 {M : Type*} [AddCommMonoid M] {n : Nat} (g : (⟨1, ![n]⟩ : Shape).Idx → M) :
    ∑ i, g i = ∑ a : Fin n, g (ix1 a) :=
  (Equiv.sum_comp (⟨fun a => ix1 a, fun i => i 0, fun _ => rfl, fun i => (eq_ix1 i).symm⟩ : Fin n ≃ (⟨1, ![n]⟩ : Shape).Idx) g).symm

/-- `x.at[rows].add(u)` on a vector, at `i`: `x i` plus the updates whose row word reads as `i`. -/
theorem scatterRows1_apply (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (i : Fin N) :
    Ideal.hostScatterAdd (addRows1 N E wf) x idx upd (ix1 i)
      = x (ix1 i) + ∑ e ∈ Finset.univ.filter (fun e : Fin E => (idx (ix2 e 0)).toInt = (i.val : ℤ)), upd (ix1 e) := by
  unfold Ideal.hostScatterAdd
  refine congrArg (x (ix1 i) + ·) ?_
  rw [Finset.sum_filter, Finset.sum_filter, sum_idx1]
  refine Finset.sum_congr rfl fun e _ => ?_
  by_cases hL : (idx (ix2 e 0)).toInt = (i.val : ℤ)
  · rw [if_pos hL, if_pos ((addRows1_lands wf idx e i).mpr hL)]
  · rw [if_neg hL, if_neg (fun h => hL ((addRows1_lands wf idx e i).mp h))]

/-- `x.at[rows].add(u)` on a matrix, at `(i, f)`: `x (i, f)` plus column `f` of the updates whose row word reads as `i`. -/
theorem scatterRows2_apply (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (i : Fin N) (f : Fin C) :
    Ideal.hostScatterAdd (addRows2 N C E wf) x idx upd (ix2 i f)
      = x (ix2 i f) + ∑ e ∈ Finset.univ.filter (fun e : Fin E => (idx (ix2 e 0)).toInt = (i.val : ℤ)), upd (ix2 e f) := by
  unfold Ideal.hostScatterAdd
  refine congrArg (x (ix2 i f) + ·) ?_
  rw [Finset.sum_filter, Finset.sum_filter, sum_idx2]
  refine Finset.sum_congr rfl fun e _ => ?_
  by_cases hL : (idx (ix2 e 0)).toInt = (i.val : ℤ)
  · rw [if_pos hL, Finset.sum_eq_single f]
    · rw [if_pos ((addRows2_lands wf idx e f i f).mpr ⟨hL, rfl⟩)]
    · intro f' _ hne
      rw [if_neg (fun h => hne ((addRows2_lands wf idx e f' i f).mp h).2)]
    · intro h; exact absurd (Finset.mem_univ f) h
  · rw [if_neg hL]
    refine Finset.sum_eq_zero fun f' _ => ?_
    rw [if_neg (fun h => hL ((addRows2_lands wf idx e f' i f).mp h).1)]

/-- The same for the host's scatter-add at any dimension record equal to the vector row form. -/
theorem host_scatterRows1_apply (d : ScatterDims ⟨1, ![N]⟩ ⟨2, ![E, 1]⟩ ⟨1, ![E]⟩)
    (wf : ScatterDims.WF ⟨1, ![N]⟩ ⟨2, ![E, 1]⟩ ⟨1, ![E]⟩ [] [0] [0] 1) (hd : d = addRows1 N E wf)
    (x : (⟨1, ![N]⟩ : Shape).Idx → EReal) (idx : IVec ⟨2, ![E, 1]⟩ w) (upd : (⟨1, ![E]⟩ : Shape).Idx → EReal) (i : Fin N) :
    Host.scatterAdd (F := Ideal) (φ := .f32) d x idx upd (ix1 i)
      = x (ix1 i) + ∑ e ∈ Finset.univ.filter (fun e : Fin E => (idx (ix2 e 0)).toInt = (i.val : ℤ)), upd (ix1 e) := by
  subst hd
  exact scatterRows1_apply wf x idx upd i

/-- The same for the host's scatter-add at any dimension record equal to the matrix row form. -/
theorem host_scatterRows2_apply (d : ScatterDims ⟨2, ![N, C]⟩ ⟨2, ![E, 1]⟩ ⟨2, ![E, C]⟩)
    (wf : ScatterDims.WF ⟨2, ![N, C]⟩ ⟨2, ![E, 1]⟩ ⟨2, ![E, C]⟩ [1] [0] [0] 1) (hd : d = addRows2 N C E wf)
    (x : (⟨2, ![N, C]⟩ : Shape).Idx → EReal) (idx : IVec ⟨2, ![E, 1]⟩ w) (upd : (⟨2, ![E, C]⟩ : Shape).Idx → EReal)
    (i : Fin N) (f : Fin C) :
    Host.scatterAdd (F := Ideal) (φ := .f32) d x idx upd (ix2 i f)
      = x (ix2 i f) + ∑ e ∈ Finset.univ.filter (fun e : Fin E => (idx (ix2 e 0)).toInt = (i.val : ℤ)), upd (ix2 e f) := by
  subst hd
  exact scatterRows2_apply wf x idx upd i f

/-! ## Gathers of rows -/

/-- A signed word clamped to a row number of an array with `N` rows. -/
def clampRow (N : ℕ) (hN : 0 < N) {w : ℕ} (v : BitVec w) : Fin N := ⟨min v.toInt.toNat (N - 1), by omega⟩

/-- The dimension numbers of `x[rows]` for `x : [N, C]`, `rows : [E, 1]`, result `[E, C]`. -/
abbrev takeRows (N C E : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- `x[rows]` at `(e, f)` is `x` at (row `e`'s word clamped, `f`). -/
theorem takeRows_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (takeRows N C E wf) x idx (ix2 e f) = x (ix2 (clampRow N hN (idx (ix2 e 0))) f) := by
  unfold Host.gather
  congr 1
  funext a
  refine Fin.ext ?_
  match a with
  | ⟨0, _⟩ =>
    show (takeRows N C E wf).start (ix2 e f) idx 0 + (takeRows N C E wf).batchCoord (ix2 e f) 0 + (takeRows N C E wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRows N C E wf).startIndexMap from List.mem_singleton.mpr rfl)]
    have hsi : (takeRows N C E wf).siIdx (ix2 e f) ⟨List.idxOf (0 : Fin 2) (takeRows N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (takeRows N C E wf).start (ix2 e f) idx 1 + (takeRows N C E wf).batchCoord (ix2 e f) 1 + (takeRows N C E wf).offCoord (ix2 e f) 1 = f.val
    rw [GatherDims.batchCoord_eq_zero _ _ _ List.not_mem_nil]
    have hs : (takeRows N C E wf).start (ix2 e f) idx 1 = 0 := by
      unfold GatherDims.start
      rw [dif_neg (by simp)]
    have ho : (takeRows N C E wf).offCoord (ix2 e f) 1 = f.val := by
      unfold GatherDims.offCoord
      rw [dif_pos (by simp [Shape.kept])]
      rfl
    rw [hs, ho]
    omega

/-- The dimension numbers of the cell gather `x[rows, cols]` for `x : [N, 1]`, the pairs `[E, 2]`, result `[E]`. -/
abbrev takeCells (N E : ℕ) (wf : GatherDims.WF ⟨2, ![N, 1]⟩ ⟨2, ![E, 2]⟩ ⟨1, ![E]⟩ [] [0, 1] [] [0, 1] [] 1 ![1, 1]) :
    GatherDims ⟨2, ![N, 1]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- A cell gather from a one-column matrix at `e` is the column at pair `e`'s first word clamped, whatever its second
    word: the column axis has one coordinate. -/
theorem takeCells_apply {α : Type} (hN : 0 < N)
    (wf : GatherDims.WF ⟨2, ![N, 1]⟩ ⟨2, ![E, 2]⟩ ⟨1, ![E]⟩ [] [0, 1] [] [0, 1] [] 1 ![1, 1])
    (x : (⟨2, ![N, 1]⟩ : Shape).Idx → α) (idx : IVec ⟨2, ![E, 2]⟩ w) (e : Fin E) :
    Host.gather (takeCells N E wf) x idx (ix1 e) = x (ix2 (clampRow N hN (idx (ix2 e 0))) 0) := by
  unfold Host.gather
  congr 1
  funext a
  refine Fin.ext ?_
  match a with
  | ⟨0, _⟩ =>
    show (takeCells N E wf).start (ix1 e) idx 0 + (takeCells N E wf).batchCoord (ix1 e) 0 + (takeCells N E wf).offCoord (ix1 e) 0 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (show (0 : Fin 2) ∈ (takeCells N E wf).startIndexMap from by simp)]
    have hsi : (takeCells N E wf).siIdx (ix1 e) ⟨List.idxOf (0 : Fin 2) (takeCells N E wf).startIndexMap,
        List.idxOf_lt_length_iff.2 (by simp)⟩ = ix2 e 0 := by
      funext b; refine Fin.ext ?_
      match b with
      | ⟨0, _⟩ => rfl
      | ⟨1, _⟩ => rfl
    rw [hsi]
    rfl
  | ⟨1, _⟩ =>
    have h1 := (takeCells N E wf).lt (ix1 e) idx 1
    show (takeCells N E wf).start (ix1 e) idx 1 + (takeCells N E wf).batchCoord (ix1 e) 1 + (takeCells N E wf).offCoord (ix1 e) 1 = 0
    have : ((⟨2, ![N, 1]⟩ : Shape).size 1) = 1 := rfl
    omega

end Idealize.ShloMosaic.ValueIdx
-- ==== Proof.KernelReads.lean ====
/-
  The host stages of the kernel's program read at an index. The transposed first 128 columns of the message weights:
  entry (q, k) is msg_W[k, q]. The relation table: entry (r, k) is the sum over the 32 relation features q of
  rel_emb[r, q] · msg_W[k, 128 + q], plus the message bias at k. An edge's message: at column k, row src(e) of the
  node product plus row rel(e) of the relation table, each row word read signed and clamped into its array's rows.
-/
import proofs.«125016_j14216341749897_2_alg».proof.Proof.KernelStages
import proofs.«125016_j14216341749897_2_alg».proof.Proof.LibRowScatterGather
import Idealize.ShloMosaic.Lib.ValueLayout
import Idealize.ShloMosaic.Lib.Pipeline.Value
import Idealize.ShloMosaic.Lib.ValueIdx
import Idealize.ShloMosaic.PureOps.Ideal.Laws

set_option maxRecDepth 16384

noncomputable section

namespace Cert.KernelIdeal.Reads

open Cert.KernelIdeal Cert.KernelIdeal.Gen Cert.KernelIdeal.Stages Idealize.ShloMosaic Idealize.ShloMosaic.ValueIdx

/-! ## The transposed first block of the message weights -/

/-- Entry (q, k) of the transposed first 128 columns of the message weights is msg_W[k, q]. -/
theorem w1t_apply (a5 : FVec Ideal S128x160 .f32) (q k : Fin 128) :
    w1t a5 (ix2 q k) = a5 (ix2 k (⟨q.val, by omega⟩ : Fin 160)) := by
  unfold w1t
  refine (transpose_ix2_apply (extractStridedSlice S128x128 ![0, 0] a5 slices_S128x160_S128x128_0_0)
    transposes_S128x128_S128x128_1_0 q k).trans ?_
  exact slice2_axis1_apply 0 a5 slices_S128x160_S128x128_0_0 k q ⟨q.val, by omega⟩ (Nat.zero_add _).symm

/-! ## The relation table -/

/-- The left operand's row coordinate is the output's row. -/
theorem rel_lhs_row (j : S64x128.Idx) (q : dot_S64x32_S32x128_S64x128_1_0_0_1_n_n.contr.Idx) :
    (dot_S64x32_S32x128_S64x128_1_0_0_1_n_n.lhsIdx j q 0).val = (j 0).val := by
  unfold DotDims.lhsIdx
  rw [dif_neg (show ¬(0 : Fin S64x32.rank) ∈ dot_S64x32_S32x128_S64x128_1_0_0_1_n_n.lhsBatch by decide), dif_pos (show (0 : Fin S64x32.rank) ∈ dot_S64x32_S32x128_S64x128_1_0_0_1_n_n.lhsNonContracting by decide)]
  rfl

/-- The left operand's column coordinate is the contracted index. -/
theorem rel_lhs_col (j : S64x128.Idx) (q : dot_S64x32_S32x128_S64x128_1_0_0_1_n_n.contr.Idx) :
    (dot_S64x32_S32x128_S64x128_1_0_0_1_n_n.lhsIdx j q 1).val = (q ⟨0, by decide⟩).val :=
  dot_S64x32_S32x128_S64x128_1_0_0_1_n_n.lhsIdx_val_of_single rfl j q

/-- The right operand's row coordinate is the contracted index. -/
theorem rel_rhs_row (j : S64x128.Idx) (q : dot_S64x32_S32x128_S64x128_1_0_0_1_n_n.contr.Idx) :
    (dot_S64x32_S32x128_S64x128_1_0_0_1_n_n.rhsIdx j q 0).val = (q ⟨0, by decide⟩).val :=
  dot_S64x32_S32x128_S64x128_1_0_0_1_n_n.rhsIdx_val_of_single rfl j q

/-- The right operand's column coordinate is the output's column. -/
theorem rel_rhs_col (j : S64x128.Idx) (q : dot_S64x32_S32x128_S64x128_1_0_0_1_n_n.contr.Idx) :
    (dot_S64x32_S32x128_S64x128_1_0_0_1_n_n.rhsIdx j q 1).val = (j 1).val := by
  unfold DotDims.rhsIdx
  rw [dif_neg (show ¬(1 : Fin S32x128.rank) ∈ dot_S64x32_S32x128_S64x128_1_0_0_1_n_n.rhsBatch by decide), dif_pos (show (1 : Fin S32x128.rank) ∈ dot_S64x32_S32x128_S64x128_1_0_0_1_n_n.rhsNonContracting by decide)]
  rfl

/-- Entry (q, k) of the transposed last 32 columns of the message weights is msg_W[k, 128 + q]. -/
theorem w2t_apply (a5 : FVec Ideal S128x160 .f32) (q : Fin 32) (k : Fin 128) :
    transpose S32x128 [1, 0] (extractStridedSlice S128x32 ![0, 128] a5 slices_S128x160_S128x32_0_128) transposes_S128x32_S32x128_1_0 (ix2 q k)
      = a5 (ix2 k (⟨128 + q.val, by omega⟩ : Fin 160)) := by
  refine (transpose_ix2_apply (extractStridedSlice S128x32 ![0, 128] a5 slices_S128x160_S128x32_0_128)
    transposes_S128x32_S32x128_1_0 q k).trans ?_
  exact slice2_axis1_apply 128 a5 slices_S128x160_S128x32_0_128 k q ⟨128 + q.val, by omega⟩ rfl

/-- The bias laid out as a row and repeated on every row reads, at (r, k), the bias at k. -/
theorem bias_rows_apply (a6 : FVec Ideal S128 .f32) (r : Fin 64) (k : Fin 128) :
    broadcastInDim S64x128 ![0, 1] bcast_S1x128_S64x128_0_1 (broadcastInDim S1x128 ![1] bcast_S128_S1x128_1 a6) (ix2 r k) = a6 (ix1 k) := by
  refine (broadcastInDim_apply ![0, 1] bcast_S1x128_S64x128_0_1 _ (ix2 r k) (ix2 (0 : Fin 1) k) (fun a => ?_)).trans ?_
  · match a with
    | ⟨0, _⟩ => rfl
    | ⟨1, _⟩ => rfl
  · refine broadcastInDim_apply ![1] bcast_S128_S1x128_1 a6 (ix2 (0 : Fin 1) k) (ix1 k) (fun a => ?_)
    match a with
    | ⟨0, _⟩ => rfl

/-- Row r of the relation table: rel_emb[r, ·] against the last 32 columns of msg_W[k, ·], plus the bias at k. -/
theorem relMsg_apply (a4 : FVec Ideal S64x32 .f32) (a5 : FVec Ideal S128x160 .f32) (a6 : FVec Ideal S128 .f32) (r : Fin 64) (k : Fin 128) :
    relMsg a4 a5 a6 (ix2 r k) = (∑ q : Fin 32, a4 (ix2 r q) * a5 (ix2 k (⟨128 + q.val, by omega⟩ : Fin 160))) + a6 (ix1 k) := by
  unfold relMsg
  refine (addf_apply _ _ (ix2 r k)).trans ?_
  refine congrArg₂ (· + ·) ?_ (bias_rows_apply a6 r k)
  simp only [Host.dotGeneral]
  rw [Ideal.dotGeneral_apply, ← Equiv.sum_comp (contrEquiv1 dot_S64x32_S32x128_S64x128_1_0_0_1_n_n 32 rfl rfl).symm]
  refine Finset.sum_congr rfl fun q _ => ?_
  have hq := contrEquiv1_symm_val dot_S64x32_S32x128_S64x128_1_0_0_1_n_n 32 rfl rfl q
  have el : dot_S64x32_S32x128_S64x128_1_0_0_1_n_n.lhsIdx (ix2 r k) ((contrEquiv1 dot_S64x32_S32x128_S64x128_1_0_0_1_n_n 32 rfl rfl).symm q) = ix2 r q := funext fun a => Fin.ext (by
    match a with
    | ⟨0, _⟩ => exact rel_lhs_row _ _
    | ⟨1, _⟩ => exact (rel_lhs_col _ _).trans hq)
  have er : dot_S64x32_S32x128_S64x128_1_0_0_1_n_n.rhsIdx (ix2 r k) ((contrEquiv1 dot_S64x32_S32x128_S64x128_1_0_0_1_n_n 32 rfl rfl).symm q) = ix2 q k := funext fun a => Fin.ext (by
    match a with
    | ⟨0, _⟩ => exact (rel_rhs_row _ _).trans hq
    | ⟨1, _⟩ => exact rel_rhs_col _ _)
  rw [el, er]
  exact congrArg (a4 (ix2 r q) * ·) (w2t_apply a5 q k)

/-! ## The edge messages -/

/-- An edge's message at column k: its source's row of the node product (the row word read signed and clamped) plus its
    relation's row of the relation table. -/
theorem msgs_apply (xm : FVec Ideal S100000x128 .f32) (rm : FVec Ideal S64x128 .f32) (a1 a3 : IVec S1600000 32) (e : Fin 1600000) (k : Fin 128) :
    msgs xm rm a1 a3 (ix2 e k) = xm (ix2 (clampRow 100000 (by norm_num) (rowWords 100000#32 a1 (ix2 e 0))) k) + rm (ix2 (clampRow 64 (by norm_num) (rowWords 64#32 a3 (ix2 e 0))) k) := by
  unfold msgs
  refine (addf_apply _ _ (ix2 e k)).trans ?_
  refine congrArg₂ (· + ·) ?_ ?_
  · exact takeRows_apply (N := 100000) (C := 128) (E := 1600000) (by norm_num)
      gather_S100000x128_S1600000x1_S1600000x128_1_0_n_n_0_1_1128_wf xm (rowWords 100000#32 a1) e k
  · exact takeRows_apply (N := 64) (C := 128) (E := 1600000) (by norm_num)
      gather_S64x128_S1600000x1_S1600000x128_1_0_n_n_0_1_1128_wf rm (rowWords 64#32 a3) e k

end Cert.KernelIdeal.Reads

end
-- ==== Proof.SharedStages.lean ====
/-
  Four places where the kernel's host program and the reference program apply the same operations to the same
  arguments: the row words of the two gathers (a negative word shifted up by the axis extent, laid out as a column),
  the clamped in-degree, and the sum of the per-edge messages into their destination rows. The two sides are the same
  operations at the same shapes and dimension numbers; they differ only in which program's copy of each shape
  abbreviation, side condition and dimension record they name, and those copies have equal fields.
-/
import proofs.«125016_j14216341749897_2_alg».proof.Proof.KernelStages
import proofs.«125016_j14216341749897_2_alg».proof.Proof.Gen.ReferenceIdeal.Read

noncomputable section

namespace Cert.SharedStages

open Cert.KernelIdeal.Stages Idealize.ShloMosaic

/-- The row words of the node gather: the kernel's column of source words is the reference's. -/
theorem rowWords_src (a1 : IVec Cert.KernelIdeal.S1600000 32) :
    rowWords 100000#32 a1 = Cert.ReferenceIdeal.Read.val_main_v5 (F := Ideal) a1 := by
  unfold rowWords Cert.ReferenceIdeal.Read.val_main_v5 Cert.ReferenceIdeal.Read.val_main_v4 Cert.ReferenceIdeal.Read.val_main_v3 Cert.ReferenceIdeal.Read.val_main_v2 Cert.ReferenceIdeal.Read.val_main_v1
    Cert.ReferenceIdeal.Read.val_main_v0 Cert.ReferenceIdeal.Read.val_main_c Cert.ReferenceIdeal.Read.val_main_c_0
  rfl

/-- The row words of the relation gather: the kernel's column of relation words is the reference's. -/
theorem rowWords_rel (a3 : IVec Cert.KernelIdeal.S1600000 32) :
    rowWords 64#32 a3 = Cert.ReferenceIdeal.Read.val_main_v12 (F := Ideal) a3 := by
  unfold rowWords Cert.ReferenceIdeal.Read.val_main_v12 Cert.ReferenceIdeal.Read.val_main_v11 Cert.ReferenceIdeal.Read.val_main_v10 Cert.ReferenceIdeal.Read.val_main_v9 Cert.ReferenceIdeal.Read.val_main_v8
    Cert.ReferenceIdeal.Read.val_main_v7 Cert.ReferenceIdeal.Read.val_main_c_1 Cert.ReferenceIdeal.Read.val_main_c_2
  rfl

/-- The clamped in-degree: ones summed into destination rows from zero, then the maximum with one. -/
theorem degClamp_eq (a2 : IVec Cert.KernelIdeal.S1600000 32) :
    degClamp a2 = Cert.ReferenceIdeal.Read.val_main_v28 (F := Ideal) a2 := by
  unfold degClamp Cert.ReferenceIdeal.Read.val_main_v28 Cert.ReferenceIdeal.Read.val_main_v27 Cert.ReferenceIdeal.Read.val_main_v26 Cert.ReferenceIdeal.Read.val_main_v25 Cert.ReferenceIdeal.Read.val_main_v24
    Cert.ReferenceIdeal.Read.val_main_v23 Cert.ReferenceIdeal.Read.val_main_cst_3 Cert.ReferenceIdeal.Read.val_main_cst_4 Cert.ReferenceIdeal.Read.val_main_cst_5
  rfl

/-- The aggregate: the reference's per-edge messages summed into their destination rows, from zero. -/
theorem aggOf_eq (a0 : (⟨Cert.ReferenceIdeal.S100000x128, .f32⟩ : BufTy).Contents (Elt Ideal))
    (a1 a2 a3 : (⟨Cert.ReferenceIdeal.S1600000, .i32⟩ : BufTy).Contents (Elt Ideal))
    (a4 : (⟨Cert.ReferenceIdeal.S64x32, .f32⟩ : BufTy).Contents (Elt Ideal))
    (a5 : (⟨Cert.ReferenceIdeal.S128x160, .f32⟩ : BufTy).Contents (Elt Ideal))
    (a6 : (⟨Cert.ReferenceIdeal.S128, .f32⟩ : BufTy).Contents (Elt Ideal))
    (u : FVec Ideal Cert.KernelIdeal.S1600000x128 .f32)
    (hu : u = Cert.ReferenceIdeal.Read.val_main_v19 (F := Ideal) a0 a1 a3 a4 a5 a6) :
    aggOf u a2 = Cert.ReferenceIdeal.Read.val_main_v22 (F := Ideal) a0 a1 a2 a3 a4 a5 a6 := by
  subst hu
  unfold aggOf Cert.ReferenceIdeal.Read.val_main_v22 Cert.ReferenceIdeal.Read.val_main_v21 Cert.ReferenceIdeal.Read.val_main_v20 Cert.ReferenceIdeal.Read.val_main_cst
  rfl

end Cert.SharedStages

end
-- ==== Proof.RefRead.lean ====
/-
  The reference program read at an index. Its result at (n, j) is the maximum with zero of
      (Σ_q x[n,q]·self_W[j,q] + self_b[j]) + (Σ_q (agg[n,q] / d[n]) · neigh_W[j,q] + neigh_b[j]),
  where agg (the per-destination sum of the edge messages) and d (the in-degree clamped below at one) stay as the
  stages the program computes them by. An edge's message at (e, k) is the product sum of the joined row
  (x[src e], rel_emb[rel e]) with row k of msg_W, plus msg_b[k]; the joined row's first 128 entries come from x and its
  last 32 from rel_emb, so the 160-term sum is the sum of its first 128 and its last 32 terms. Each gathered row is the
  source array's row at the edge's word, read signed and clamped into the array's rows.
-/
import proofs.«125016_j14216341749897_2_alg».proof.Proof.Gen.ReferenceIdeal.Read
import proofs.«125016_j14216341749897_2_alg».proof.Proof.LibRowScatterGather
import Idealize.ShloMosaic.Lib.Pipeline.Value
import Idealize.ShloMosaic.Lib.ValueIdx
import Idealize.ShloMosaic.PureOps.Ideal.Laws

noncomputable section

namespace Cert.ReferenceIdeal.RefRead

open Cert.ReferenceIdeal Cert.ReferenceIdeal.Read
open Idealize.ShloMosaic Idealize.ShloMosaic.TcCoe Idealize.ShloMosaic.ValueIdx Idealize.SL.Sem

/-- A sum of 160 terms is the sum of its first 128 terms plus the sum of its last 32. -/
theorem sum_split_160 (f : Fin 160 → EReal) :
    ∑ q : Fin 160, f q
      = (∑ q : Fin 128, f (⟨q.val, by omega⟩ : Fin 160)) + ∑ q : Fin 32, f (⟨128 + q.val, by omega⟩ : Fin 160) :=
  Fin.sum_univ_add (a := 128) (b := 32) f

/-- The gathered node rows x[src] at (e, q): row (src e, wrapped if negative, then clamped) of x. -/
theorem rows_x_apply (x0 : (⟨S100000x128, .f32⟩ : BufTy).Contents (Elt Ideal))
    (x1 : (⟨S1600000, .i32⟩ : BufTy).Contents (Elt Ideal)) (e : Fin 1600000) (q : Fin 128) :
    val_main_v6 (F := Ideal) x0 x1 (ix2 e q)
      = x0 (ix2 (clampRow 100000 (by norm_num) (val_main_v5 (F := Ideal) x1 (ix2 e 0))) q) := by
  unfold val_main_v6
  rw [show gather_S100000x128_S1600000x1_S1600000x128_1_0_n_n_0_1_1128
      = takeRows 100000 128 1600000 Facts₀.gather_S100000x128_S1600000x1_S1600000x128_1_0_n_n_0_1_1128_wf from rfl]
  exact takeRows_apply (by norm_num) _ x0 (val_main_v5 (F := Ideal) x1) e q

/-- The gathered relation rows rel_emb[rel] at (e, q): row (rel e, wrapped if negative, then clamped) of rel_emb. -/
theorem rows_rel_apply (x3 : (⟨S1600000, .i32⟩ : BufTy).Contents (Elt Ideal))
    (x4 : (⟨S64x32, .f32⟩ : BufTy).Contents (Elt Ideal)) (e : Fin 1600000) (q : Fin 32) :
    val_main_v13 (F := Ideal) x3 x4 (ix2 e q)
      = x4 (ix2 (clampRow 64 (by norm_num) (val_main_v12 (F := Ideal) x3 (ix2 e 0))) q) := by
  unfold val_main_v13
  rw [show gather_S64x32_S1600000x1_S1600000x32_1_0_n_n_0_1_132
      = takeRows 64 32 1600000 Facts₀.gather_S64x32_S1600000x1_S1600000x32_1_0_n_n_0_1_132_wf from rfl]
  exact takeRows_apply (by norm_num) _ x4 (val_main_v12 (F := Ideal) x3) e q

/-- The joined features at a column below 128 are the gathered node rows at that column. -/
theorem feats_left (x0 : (⟨S100000x128, .f32⟩ : BufTy).Contents (Elt Ideal))
    (x1 x3 : (⟨S1600000, .i32⟩ : BufTy).Contents (Elt Ideal))
    (x4 : (⟨S64x32, .f32⟩ : BufTy).Contents (Elt Ideal)) (e : Fin 1600000) (q : Fin 128) :
    val_main_v14 (F := Ideal) x0 x1 x3 x4 (ix2 e (⟨q.val, by omega⟩ : Fin 160))
      = val_main_v6 (F := Ideal) x0 x1 (ix2 e q) := by
  unfold val_main_v14
  generalize val_main_v6 (F := Ideal) x0 x1 = y0
  generalize val_main_v13 (F := Ideal) x3 x4 = y1
  exact concatenate_pair_apply_left (t := S1600000x160) (s₁ := S1600000x128) (s₂ := S1600000x32) 1 y0 y1
    Gen.concatenates_S1600000x128_S1600000x32_S1600000x160_d1 (ix2 e (⟨q.val, by omega⟩ : Fin 160)) rfl (ix2 e q)
    (fun b => match b with | ⟨0, _⟩ => rfl | ⟨1, _⟩ => rfl)

/-- The joined features at column 128 + q are the gathered relation rows at column q. -/
theorem feats_right (x0 : (⟨S100000x128, .f32⟩ : BufTy).Contents (Elt Ideal))
    (x1 x3 : (⟨S1600000, .i32⟩ : BufTy).Contents (Elt Ideal))
    (x4 : (⟨S64x32, .f32⟩ : BufTy).Contents (Elt Ideal)) (e : Fin 1600000) (q : Fin 32) :
    val_main_v14 (F := Ideal) x0 x1 x3 x4 (ix2 e (⟨128 + q.val, by omega⟩ : Fin 160))
      = val_main_v13 (F := Ideal) x3 x4 (ix2 e q) := by
  unfold val_main_v14
  generalize val_main_v6 (F := Ideal) x0 x1 = y0
  generalize val_main_v13 (F := Ideal) x3 x4 = y1
  exact concatenate_pair_apply_right (t := S1600000x160) (s₁ := S1600000x128) (s₂ := S1600000x32) 1 y0 y1
    Gen.concatenates_S1600000x128_S1600000x32_S1600000x160_d1 (ix2 e (⟨128 + q.val, by omega⟩ : Fin 160)) rfl rfl (ix2 e q)
    (fun b hb => match b, hb with | ⟨0, _⟩, _ => rfl | ⟨1, _⟩, hb => absurd (Fin.ext rfl) hb)
    (Nat.add_comm q.val 128)

/-- the per-edge message at (e, k): the 160-term product sum split into its first 128 and last 32 terms -/
theorem msg_apply (x0 : (⟨S100000x128, .f32⟩ : BufTy).Contents (Elt Ideal))
    (x1 x3 : (⟨S1600000, .i32⟩ : BufTy).Contents (Elt Ideal))
    (x4 : (⟨S64x32, .f32⟩ : BufTy).Contents (Elt Ideal))
    (x5 : (⟨S128x160, .f32⟩ : BufTy).Contents (Elt Ideal))
    (x6 : (⟨S128, .f32⟩ : BufTy).Contents (Elt Ideal))
    (e : Fin 1600000) (k : Fin 128) :
    val_main_v19 (F := Ideal) x0 x1 x3 x4 x5 x6 (ix2 e k) =
      ((∑ q : Fin 128, x0 (ix2 (clampRow 100000 (by norm_num) (val_main_v5 (F := Ideal) x1 (ix2 e 0))) q)
            * x5 (ix2 k (⟨q.val, by omega⟩ : Fin 160)))
       + (∑ q : Fin 32, x4 (ix2 (clampRow 64 (by norm_num) (val_main_v12 (F := Ideal) x3 (ix2 e 0))) q)
            * x5 (ix2 k (⟨128 + q.val, by omega⟩ : Fin 160))))
      + x6 (ix1 k) := by
  have el : ∀ q : Fin 160, lidx_main_v16 (ix2 e k) q = ix2 e q := fun q =>
    funext fun a => Fin.ext (by match a with | ⟨0, _⟩ => rfl | ⟨1, _⟩ => rfl)
  have er : ∀ q : Fin 160, idx_main_v15 (ridx_main_v16 (ix2 e k) q) = ix2 k q := fun q =>
    funext fun a => Fin.ext (by match a with | ⟨0, _⟩ => rfl | ⟨1, _⟩ => rfl)
  have eb : idx_main_v17 (idx_main_v18 (ix2 e k)) = ix1 k :=
    funext fun a => Fin.ext (by match a with | ⟨0, _⟩ => rfl)
  rw [val_main_v19_apply, val_main_v16_apply, val_main_v18_apply, val_main_v17_apply, eb, Ideal.addf_def]
  simp only [val_main_v15_apply, el, er]
  rw [sum_split_160]
  simp only [feats_left, feats_right, rows_x_apply, rows_rel_apply]

/-- The self term x @ self_Wᵀ + self_b at (n, j). -/
theorem self_apply (x0 : (⟨S100000x128, .f32⟩ : BufTy).Contents (Elt Ideal))
    (x7 : (⟨S128x128, .f32⟩ : BufTy).Contents (Elt Ideal))
    (x8 : (⟨S128, .f32⟩ : BufTy).Contents (Elt Ideal)) (n : Fin 100000) (j : Fin 128) :
    val_main_v36 (F := Ideal) x0 x7 x8 (ix2 n j) = (∑ q : Fin 128, x0 (ix2 n q) * x7 (ix2 j q)) + x8 (ix1 j) := by
  have el : ∀ k : Fin 128, lidx_main_v33 (ix2 n j) k = ix2 n k := fun k =>
    funext fun a => Fin.ext (by match a with | ⟨0, _⟩ => rfl | ⟨1, _⟩ => rfl)
  have er : ∀ k : Fin 128, idx_main_v32 (ridx_main_v33 (ix2 n j) k) = ix2 j k := fun k =>
    funext fun a => Fin.ext (by match a with | ⟨0, _⟩ => rfl | ⟨1, _⟩ => rfl)
  have eb : idx_main_v34 (idx_main_v35 (ix2 n j)) = ix1 j :=
    funext fun a => Fin.ext (by match a with | ⟨0, _⟩ => rfl)
  rw [val_main_v36_apply, val_main_v33_apply, val_main_v35_apply, val_main_v34_apply, eb, Ideal.addf_def]
  refine congrArg (· + x8 (ix1 j)) (Finset.sum_congr rfl fun k _ => ?_)
  rw [val_main_v32_apply, el, er]

/-- The mean aggregate agg / clamp[:, None] at (n, q): both operands stay opaque. -/
theorem mean_apply (x0 : (⟨S100000x128, .f32⟩ : BufTy).Contents (Elt Ideal))
    (x1 x2 x3 : (⟨S1600000, .i32⟩ : BufTy).Contents (Elt Ideal))
    (x4 : (⟨S64x32, .f32⟩ : BufTy).Contents (Elt Ideal))
    (x5 : (⟨S128x160, .f32⟩ : BufTy).Contents (Elt Ideal))
    (x6 : (⟨S128, .f32⟩ : BufTy).Contents (Elt Ideal)) (n : Fin 100000) (q : Fin 128) :
    val_main_v31 (F := Ideal) x0 x1 x2 x3 x4 x5 x6 (ix2 n q)
      = Ideal.div (val_main_v22 (F := Ideal) x0 x1 x2 x3 x4 x5 x6 (ix2 n q)) (val_main_v28 (F := Ideal) x2 (ix1 n)) := by
  have eb : idx_main_v29 (idx_main_v30 (ix2 n q)) = ix1 n :=
    funext fun a => Fin.ext (by match a with | ⟨0, _⟩ => rfl)
  rw [val_main_v31_apply, val_main_v30_apply, val_main_v29_apply, eb, Ideal.hostDivf_def]

/-- The neighbour term (agg / clamp) @ neigh_Wᵀ + neigh_b at (n, j). -/
theorem neigh_apply (x0 : (⟨S100000x128, .f32⟩ : BufTy).Contents (Elt Ideal))
    (x1 x2 x3 : (⟨S1600000, .i32⟩ : BufTy).Contents (Elt Ideal))
    (x4 : (⟨S64x32, .f32⟩ : BufTy).Contents (Elt Ideal))
    (x5 : (⟨S128x160, .f32⟩ : BufTy).Contents (Elt Ideal))
    (x6 : (⟨S128, .f32⟩ : BufTy).Contents (Elt Ideal))
    (x9 : (⟨S128x128, .f32⟩ : BufTy).Contents (Elt Ideal))
    (x10 : (⟨S128, .f32⟩ : BufTy).Contents (Elt Ideal)) (n : Fin 100000) (j : Fin 128) :
    val_main_v41 (F := Ideal) x0 x1 x2 x3 x4 x5 x6 x9 x10 (ix2 n j)
      = (∑ q : Fin 128, Ideal.div (val_main_v22 (F := Ideal) x0 x1 x2 x3 x4 x5 x6 (ix2 n q))
            (val_main_v28 (F := Ideal) x2 (ix1 n)) * x9 (ix2 j q)) + x10 (ix1 j) := by
  have el : ∀ k : Fin 128, lidx_main_v38 (ix2 n j) k = ix2 n k := fun k =>
    funext fun a => Fin.ext (by match a with | ⟨0, _⟩ => rfl | ⟨1, _⟩ => rfl)
  have er : ∀ k : Fin 128, idx_main_v37 (ridx_main_v38 (ix2 n j) k) = ix2 j k := fun k =>
    funext fun a => Fin.ext (by match a with | ⟨0, _⟩ => rfl | ⟨1, _⟩ => rfl)
  have eb : idx_main_v39 (idx_main_v40 (ix2 n j)) = ix1 j :=
    funext fun a => Fin.ext (by match a with | ⟨0, _⟩ => rfl)
  rw [val_main_v41_apply, val_main_v38_apply, val_main_v40_apply, val_main_v39_apply, eb, Ideal.addf_def]
  refine congrArg (· + x10 (ix1 j)) (Finset.sum_congr rfl fun k _ => ?_)
  rw [val_main_v37_apply, el, er, mean_apply]

/-- the result at (n, j) -/
theorem out_apply (x0 : (⟨S100000x128, .f32⟩ : BufTy).Contents (Elt Ideal))
    (x1 x2 x3 : (⟨S1600000, .i32⟩ : BufTy).Contents (Elt Ideal))
    (x4 : (⟨S64x32, .f32⟩ : BufTy).Contents (Elt Ideal))
    (x5 : (⟨S128x160, .f32⟩ : BufTy).Contents (Elt Ideal))
    (x6 : (⟨S128, .f32⟩ : BufTy).Contents (Elt Ideal))
    (x7 : (⟨S128x128, .f32⟩ : BufTy).Contents (Elt Ideal))
    (x8 : (⟨S128, .f32⟩ : BufTy).Contents (Elt Ideal))
    (x9 : (⟨S128x128, .f32⟩ : BufTy).Contents (Elt Ideal))
    (x10 : (⟨S128, .f32⟩ : BufTy).Contents (Elt Ideal))
    (n : Fin 100000) (j : Fin 128) :
    val_main_v43 (F := Ideal) x0 x1 x2 x3 x4 x5 x6 x7 x8 x9 x10 (ix2 n j) =
      max (((∑ q : Fin 128, x0 (ix2 n q) * x7 (ix2 j q)) + x8 (ix1 j))
           + ((∑ q : Fin 128, Ideal.div (val_main_v22 (F := Ideal) x0 x1 x2 x3 x4 x5 x6 (ix2 n q))
                 (val_main_v28 (F := Ideal) x2 (ix1 n)) * x9 (ix2 j q)) + x10 (ix1 j))) (0 : EReal) := by
  rw [val_main_v43_apply, val_main_v42_apply, self_apply, neigh_apply, val_main_call0_v0_apply,
    val_main_call0_cst_apply, Ideal.maximumf_def, Ideal.addf_def, Ideal.ofBits_def, Ideal.ofBits_zero_f32]

end Cert.ReferenceIdeal.RefRead

end
-- ==== Proof.Bridge.lean ====
/-
  The bridge: the idealized kernel program's result array and the reference's are one array.

  Entry (n, j) of both is
      max( (Σ_q x[n,q]·self_W[j,q] + self_b[j]) + (Σ_q (agg[n,q] / d[n]) · neigh_W[j,q] + neigh_b[j]) , 0 ),
  with agg the per-destination sum of the edge messages and d the in-degree clamped below at one. Three things join the
  two sides: each edge's message is the same number in both programs (a 160-term sum split into 128 + 32 terms, the
  bias reassociated); the sums over edges and the degrees are then the same operations of equal operands; and since
  d[n] ≥ 1 is not zero, the kernel's  agg · (1 / d)  is the reference's  agg / d  (both are  agg · d⁻¹).
-/
import proofs.«125016_j14216341749897_2_alg».proof.Proof.KernelStages
import proofs.«125016_j14216341749897_2_alg».proof.Proof.XmValue
import proofs.«125016_j14216341749897_2_alg».proof.Proof.NodeValue
import proofs.«125016_j14216341749897_2_alg».proof.Proof.KernelReads
import proofs.«125016_j14216341749897_2_alg».proof.Proof.SharedStages
import proofs.«125016_j14216341749897_2_alg».proof.Proof.RefRead
import proofs.«125016_j14216341749897_2_alg».proof.Proof.LibRowScatterGather
import proofs.«125016_j14216341749897_2_alg».proof.Proof.LibColumnForms
import Idealize.ShloMosaic.Lib.ValueLayout
import Idealize.ShloMosaic.Lib.Pipeline.Value
import Idealize.ShloMosaic.Lib.ValueIdx
import Idealize.ShloMosaic.PureOps.Ideal.Laws

set_option maxRecDepth 16384

noncomputable section

namespace Cert.Bridge

open Cert.KernelIdeal Cert.KernelIdeal.Gen Cert.KernelIdeal.Stages
open Idealize.ShloMosaic Idealize.ShloMosaic.TcCoe Idealize.ShloMosaic.ValueIdx Idealize.ShloMosaic.ValueLayout Idealize.SL.Sem

/-! ## Two facts about the extended reals -/

/-- The word of the float one denotes the real one. -/
theorem one_f32 : Ideal.ofBits .f32 0x3F800000#32 = 1 := by
  simp [Ideal.ofBits, Ideal.ieee, -EReal.coe_mul]; norm_num

/-- Off zero, multiplying by the reciprocal is dividing: both are the product with the inverse. -/
theorem mul_div_one (a d : EReal) (hd : d ≠ 0) : a * Ideal.div 1 d = Ideal.div a d := by
  rw [Ideal.div, Ideal.div, if_neg hd, if_neg hd, one_mul]

/-! ## The clamped degree and its reciprocal column -/

/-- A scalar constant broadcast over a vector reads the constant's value everywhere. -/
theorem splat_one (i : S100000.Idx) :
    broadcastInDim S100000 ![] bcast_S_S100000 (constant (F := Ideal) S_ .f32 0x3F800000#32) i = 1 := by
  exact (broadcastInDim_apply (s := S_) (t := S100000) ![] bcast_S_S100000 (constant (F := Ideal) S_ .f32 0x3F800000#32) i
    (fun a => a.elim0) (fun a => a.elim0)).trans one_f32

/-- The clamped degree is at least one, so it is not zero. -/
theorem degClamp_ne_zero (a2 : IVec S1600000 32) (i : S100000.Idx) : degClamp a2 i ≠ 0 := by
  have h : (1 : EReal) ≤ degClamp a2 i := by
    unfold degClamp
    rw [maximumf_apply, splat_one]
    exact le_max_right _ _
  intro h0
  rw [h0] at h
  exact absurd h (by norm_num)

/-- The host's quotient of two arrays, at an index, is the quotient of the entries. -/
theorem hostDivf_apply {s : Shape} (x y : FVec Ideal s .f32) (i : s.Idx) :
    Host.divf (F := Ideal) x y i = Ideal.div (x i) (y i) := rfl

/-- The reciprocal column at row n is one over the clamped degree of row n. -/
theorem invDeg_apply (a2 : IVec S1600000 32) (n : Fin 100000) :
    invDeg a2 (ix2 n 0) = Ideal.div 1 (degClamp a2 (ix1 n)) := by
  unfold invDeg
  rw [shapeCast_a_a1_apply, hostDivf_apply, splat_one]

end Cert.Bridge

namespace Cert.Bridge

open Cert.KernelIdeal Cert.KernelIdeal.Gen Cert.KernelIdeal.Stages
open Idealize.ShloMosaic Idealize.ShloMosaic.TcCoe Idealize.ShloMosaic.ValueIdx Idealize.ShloMosaic.ValueLayout Idealize.SL.Sem

variable (m : (ℓ : Loc nD τ sig) → Buf (Elt Ideal) ℓ) (ρ : Dev nD → PrngReg) (c : Dev nD)

/-! The argument arrays as launched on core c: node features, the three edge word arrays (source, destination,
    relation), the relation embeddings, the message weights and bias, the self and neighbour weights and biases. -/
abbrev x0 : FVec Ideal S100000x128 .f32 := m ((c : Thread nD τ).loc main_arg0)
abbrev x1 : IVec S1600000 32 := m ((c : Thread nD τ).loc main_arg1)
abbrev x2 : IVec S1600000 32 := m ((c : Thread nD τ).loc main_arg2)
abbrev x3 : IVec S1600000 32 := m ((c : Thread nD τ).loc main_arg3)
abbrev x4 : FVec Ideal S64x32 .f32 := m ((c : Thread nD τ).loc main_arg4)
abbrev x5 : FVec Ideal S128x160 .f32 := m ((c : Thread nD τ).loc main_arg5)
abbrev x6 : FVec Ideal S128 .f32 := m ((c : Thread nD τ).loc main_arg6)
abbrev x7 : FVec Ideal S128x128 .f32 := m ((c : Thread nD τ).loc main_arg7)
abbrev x8 : FVec Ideal S128 .f32 := m ((c : Thread nD τ).loc main_arg8)
abbrev x9 : FVec Ideal S128x128 .f32 := m ((c : Thread nD τ).loc main_arg9)
abbrev x10 : FVec Ideal S128 .f32 := m ((c : Thread nD τ).loc main_arg10)

/-- The first region's product  x · W1ᵀ , as the array its write-backs leave. -/
abbrev xmArr : FVec Ideal S100000x128 .f32 := (dat0 (V1 m ρ) c).arrAt 2 cfg0.N

/-- Row i, column k of the first region's product: the sum over q of x[i,q] · msg_W[k,q]. -/
theorem xmArr_apply (i : Fin 100000) (k : Fin 128) :
    xmArr m ρ c (ix2 i k) = ∑ q : Fin 128, (x0 m c) (ix2 i q) * (x5 m c) (ix2 k (⟨q.val, by omega⟩ : Fin 160)) := by
  have h : xmArr m ρ c (ix2 i k) = ∑ q : Fin 128, (x0 m c) (ix2 i q) * w1t (x5 m c) (ix2 q k) :=
    Cert.KernelIdeal.XmValue.xm_arr (V1 m ρ) c (x0 m c) (w1t (x5 m c)) (v1_arg0 m ρ c) (v1_w1t m ρ c) i k
  rw [h]
  exact Finset.sum_congr rfl fun q _ => by rw [Cert.KernelIdeal.Reads.w1t_apply]

/-! ## Each edge's message is the same in both programs

  The kernel's program adds row src(e) of  x · W1ᵀ  to row rel(e) of  rel_emb · W2ᵀ + msg_b ; the reference multiplies the
  joined row (x[src(e)], rel_emb[rel(e)]) with all of msg_Wᵀ and then adds msg_b. The 160-term sum splits into its first
  128 and last 32 terms, and the bias moves across by associativity of addition, which holds on the extended reals. -/

theorem msgs_eq : msgs (xmArr m ρ c) (relMsg (x4 m c) (x5 m c) (x6 m c)) (x1 m c) (x3 m c)
    = Cert.ReferenceIdeal.Read.val_main_v19 (F := Ideal) (x0 m c) (x1 m c) (x3 m c) (x4 m c) (x5 m c) (x6 m c) := by
  funext j
  obtain ⟨e, k, rfl⟩ : ∃ (e : Fin 1600000) (k : Fin 128), j = ix2 e k := ⟨j 0, j 1, eq_ix2 j⟩
  rw [Cert.KernelIdeal.Reads.msgs_apply, Cert.ReferenceIdeal.RefRead.msg_apply, xmArr_apply,
    Cert.KernelIdeal.Reads.relMsg_apply, Cert.SharedStages.rowWords_src, Cert.SharedStages.rowWords_rel, add_assoc]

/-! ## The kernel's result at an index -/

theorem kernel_out (n : Fin 100000) (j : Fin 128) :
    ((dat1 (V3 m ρ) c).arrAt 7 cfg1.N : S100000x128.Idx → EReal) (ix2 n j)
      = max (((∑ q : Fin 128, (x0 m c) (ix2 n q) * (x7 m c) (ix2 j q)) + (x8 m c) (ix1 j))
          + ((∑ q : Fin 128, Ideal.div
                (aggOf (msgs (xmArr m ρ c) (relMsg (x4 m c) (x5 m c) (x6 m c)) (x1 m c) (x3 m c)) (x2 m c) (ix2 n q))
                (degClamp (x2 m c) (ix1 n)) * (x9 m c) (ix2 j q)) + (x10 m c) (ix1 j))) (0 : EReal) := by
  refine (Cert.KernelIdeal.NodeValue.node_arr (V3 m ρ) c (x0 m c)
    (aggOf (msgs (xmArr m ρ c) (relMsg (x4 m c) (x5 m c) (x6 m c)) (x1 m c) (x3 m c)) (x2 m c))
    (invDeg (x2 m c))
    (transpose S128x128 [1, 0] (x7 m c) transposes_S128x128_S128x128_1_0)
    (transpose S128x128 [1, 0] (x9 m c) transposes_S128x128_S128x128_1_0)
    (shapeCast S1x128 (x8 m c) shapeCasts_S128_S1x128) (shapeCast S1x128 (x10 m c) shapeCasts_S128_S1x128)
    (v3_arg0 m ρ c) (v3_agg m ρ c) (v3_inv m ρ c)
    (v3_selfWt m ρ c) (v3_selfB m ρ c) (v3_neighWt m ρ c) (v3_neighB m ρ c) n j).trans ?_
  rw [shapeCast_a_1a_apply, shapeCast_a_1a_apply, invDeg_apply]
  have hs : ∀ q : Fin 128, transpose S128x128 [1, 0] (x7 m c) transposes_S128x128_S128x128_1_0 (ix2 q j) = (x7 m c) (ix2 j q) :=
    fun q => transpose_ix2_apply (x7 m c) transposes_S128x128_S128x128_1_0 q j
  have hn : ∀ q : Fin 128, transpose S128x128 [1, 0] (x9 m c) transposes_S128x128_S128x128_1_0 (ix2 q j) = (x9 m c) (ix2 j q) :=
    fun q => transpose_ix2_apply (x9 m c) transposes_S128x128_S128x128_1_0 q j
  simp only [hs, hn, mul_div_one _ _ (degClamp_ne_zero (x2 m c) (ix1 n))]

/-! ## The two results are one array -/

theorem result_eq : ((dat1 (V3 m ρ) c).arrAt 7 cfg1.N : S100000x128.Idx → EReal)
    = Cert.ReferenceIdeal.Read.val_main_v43 (F := Ideal) (x0 m c) (x1 m c) (x2 m c) (x3 m c) (x4 m c) (x5 m c) (x6 m c) (x7 m c) (x8 m c) (x9 m c) (x10 m c) := by
  funext i
  obtain ⟨n, j, rfl⟩ : ∃ (n : Fin 100000) (j : Fin 128), i = ix2 n j := ⟨i 0, i 1, eq_ix2 i⟩
  rw [kernel_out, Cert.ReferenceIdeal.RefRead.out_apply, ← Cert.SharedStages.degClamp_eq,
    ← Cert.SharedStages.aggOf_eq (x0 m c) (x1 m c) (x2 m c) (x3 m c) (x4 m c) (x5 m c) (x6 m c) _ (msgs_eq m ρ c)]

end Cert.Bridge

end
-- ==== Proof.lean ====
/-
  A relation-aware neighbourhood layer on a graph of 100000 nodes and 1600000 edges:
      msg(e)  = [x[src e], rel_emb[rel e]] · msg_Wᵀ + msg_b          (one row of 128 per edge)
      agg(n)  = the sum of msg(e) over the edges e with dst e = n
      d(n)    = max(number of such edges, 1)
      out     = relu((x · self_Wᵀ + self_b) + ((agg / d) · neigh_Wᵀ + neigh_b)).
  The reference computes exactly this on the host. The kernel's program splits msg_W into its first 128 columns W1 and
  last 32 columns W2, computes  x · W1ᵀ  once per node in a first kernel region and the table  rel_emb · W2ᵀ + msg_b  once
  per relation on the host, takes msg(e) as row src(e) of the first plus row rel(e) of the second, sums and counts as the
  reference does, and evaluates the last line in a second kernel region with  agg · (1 / d)  in place of  agg / d.

  On the extended reals the two agree entry by entry:
  · per edge, the 160-term sum of products splits into its first 128 and last 32 terms and the bias moves across by
    associativity of addition; row gathers commute with a product taken row by row;
  · the sums over edges are the same operation applied to equal messages, and the edge counts are the same term;
  · d(n) ≥ 1 is not zero, and off zero  a · (1 / d) = a · d⁻¹ = a / d;
  · a change of float format is the identity, and a matrix product into a zero accumulator is the plain sum of products.
  None of these needs an input to be finite, so the precondition is never opened.

  Each kernel region's output array is read off its write-backs as one whole-array function (XmValue, NodeValue); the
  host stretches are named stage functions (KernelStages, read at an index in KernelReads); the reference is read at
  an index in RefRead; SharedStages identifies the stages the two programs share; Bridge joins the two sides; RunValue
  is the kernel program's run with its result buffer named.
-/
import proofs.«125016_j14216341749897_2_alg».proof.Defs
import proofs.«125016_j14216341749897_2_alg».proof.Proof.Gen.Kernel
import proofs.«125016_j14216341749897_2_alg».proof.Proof.Gen.Kernel.Skeleton
import proofs.«125016_j14216341749897_2_alg».proof.Proof.Gen.Kernel.Launch
import proofs.«125016_j14216341749897_2_alg».proof.Proof.Gen.Kernel.Points
import proofs.«125016_j14216341749897_2_alg».proof.Proof.Gen.Kernel.Frame
import proofs.«125016_j14216341749897_2_alg».proof.Proof.Gen.KernelIdeal
import proofs.«125016_j14216341749897_2_alg».proof.Proof.Gen.KernelIdeal.Skeleton
import proofs.«125016_j14216341749897_2_alg».proof.Proof.Gen.KernelIdeal.Launch
import proofs.«125016_j14216341749897_2_alg».proof.Proof.Gen.KernelIdeal.Points
import proofs.«125016_j14216341749897_2_alg».proof.Proof.Gen.KernelIdeal.Frame
import proofs.«125016_j14216341749897_2_alg».proof.Proof.Gen.ReferenceIdeal
import proofs.«125016_j14216341749897_2_alg».proof.Proof.Gen.Pre_finite_inputs
import proofs.«125016_j14216341749897_2_alg».proof.Proof.Gen.ReferenceIdeal.Run
import proofs.«125016_j14216341749897_2_alg».proof.Proof.Gen.ReferenceIdeal.Read
import proofs.«125016_j14216341749897_2_alg».proof.Proof.RunValue
import proofs.«125016_j14216341749897_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs to the end without a fault and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a host program: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve beyond the program's own text. -/
theorem preserves : Cert.preserves_Kernel_KernelIdeal := trivial

/-- Run from memories agreeing on the arguments, both idealized programs end with the same result array: the
    reference's last stage of the launched arguments. The kernel's side is its run with the result named and the
    bridge; the reference's side is its generated run with the arguments' agreement rewritten. -/
theorem algebraic : Cert.algebraic_KernelIdeal_ReferenceIdeal := by
  intro m ρ m' ρ' _ hagree
  refine ⟨fun c => Cert.ReferenceIdeal.Read.val_main_v43 (F := Ideal) (Cert.Bridge.x0 m c) (Cert.Bridge.x1 m c) (Cert.Bridge.x2 m c) (Cert.Bridge.x3 m c) (Cert.Bridge.x4 m c) (Cert.Bridge.x5 m c) (Cert.Bridge.x6 m c) (Cert.Bridge.x7 m c) (Cert.Bridge.x8 m c) (Cert.Bridge.x9 m c) (Cert.Bridge.x10 m c), ?_, ?_⟩
  · exact (θ_run Cert.KernelIdeal.defs _ _).mono
      (fun r h c => ⟨(h c).1.trans (Cert.Bridge.result_eq m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2]
    exact Cert.ReferenceIdeal.Read.val_main_v43_eq _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
